-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x32x32 : Shape := ⟨4, ![8, 2048, 32, 32]⟩
abbrev S256x2048x1x1 : Shape := ⟨4, ![256, 2048, 1, 1]⟩
abbrev S256 : Shape := ⟨1, ![256]⟩
abbrev S_ : Shape := ⟨0, ![]⟩

class Facts : Prop where
  bcast_S_S8x2048x32x32 : S_.BroadcastsInDim S8x2048x32x32 (![] : Fin 0 → Fin S8x2048x32x32.rank)
  reducesTo_S8x2048x32x32_S_d0_1_2_3 : S8x2048x32x32.ReducesTo [0, 1, 2, 3] S_
  h_S_ : 0 < S_.numel
  bcast_S_S256x2048x1x1 : S_.BroadcastsInDim S256x2048x1x1 (![] : Fin 0 → Fin S256x2048x1x1.rank)
  reducesTo_S256x2048x1x1_S_d0_1_2_3 : S256x2048x1x1.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_cst_10 : FVec F S_ .f32 := constant S_ .f32 0x00000000#32
  let main_v29 : FVec F S256 .f32 := broadcastInDim S256 ![] bcast_S_S256 main_cst_10
  let main_v30 : IVec S256 1 := cmpf .oge main_arg5 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v28 main_v31
  main_v32

def fn {F : FTy → Type} [FloatOps F] (main_arg0 : FVec F S8x2048x32x32 .f32) (main_arg1 : FVec F S256x2048x1x1 .f32) (main_arg2 : FVec F S256 .f32) (main_arg3 : FVec F S256 .f32) (main_arg4 : FVec F S256 .f32) (main_arg5 : FVec F S256 .f32) : IVec S_ 1 :=
  let main_v0 : FVec F S8x2048x32x32 .f32 := Host.absf main_arg0
  let main_cst : FVec F S_ .f32 := constant S_ .f32 0x7F800000#32
  let main_v1 : FVec F S8x2048x32x32 .f32 := broadcastInDim S8x2048x32x32 ![] bcast_S_S8x2048x32x32 main_cst
  let main_v2 : IVec S8x2048x32x32 1 := cmpf .olt main_v0 main_v1
  let main_c : IVec S_ 1 := constantI S_ 1 1#1
  let main_v3 : IVec S_ 1 := (fun x v => Host.reduce IntOp.andi x v reducesTo_S8x2048x32x32_S_d0_1_2_3 h_S_) main_v2 main_c
  let main_v4 : FVec F S256x2048x1x1 .f32 := Host.absf main_arg1
  let main_cst_0 : FVec F S_ .f32 := constant S_ .f32 0x7F800000#32
  let main_v5 : FVec F S256x2048x1x1 .f32 := broadcastInDim S256x2048x1x1 ![] bcast_S_S256x2048x1x1 main_cst_0
  let main_v6 : IVec S256x2048x1x1 1 := cmpf .olt main_v4 main_v5
  let main_c_1 : IVec S_ 1 := constantI S_ 1 1#1
  let main_v7 : IVec S_ 1 := (fun x v => Host.reduce IntOp.andi x v reducesTo_S256x2048x1x1_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x2048x32x32 : Shape := ⟨4, ![8, 2048, 32, 32]⟩
abbrev S256x2048x1x1 : Shape := ⟨4, ![256, 2048, 1, 1]⟩
abbrev S256 : Shape := ⟨1, ![256]⟩
abbrev S_ : Shape := ⟨0, ![]⟩
abbrev S1x256 : Shape := ⟨2, ![1, 256]⟩
abbrev S256x16x128 : Shape := ⟨3, ![256, 16, 128]⟩
abbrev S8x32x32x2048 : Shape := ⟨4, ![8, 32, 32, 2048]⟩
abbrev S8x1024x2048 : Shape := ⟨3, ![8, 1024, 2048]⟩
abbrev S8x1024x256 : Shape := ⟨3, ![8, 1024, 256]⟩
abbrev S1x1024x2048 : Shape := ⟨3, ![1, 1024, 2048]⟩
abbrev S1x1024x256 : Shape := ⟨3, ![1, 1024, 256]⟩
abbrev S256x2048 : Shape := ⟨2, ![256, 2048]⟩
abbrev S1024x2048 : Shape := ⟨2, ![1024, 2048]⟩
abbrev S2048 : Shape := ⟨1, ![2048]⟩
abbrev S1x2048 : Shape := ⟨2, ![1, 2048]⟩
abbrev S1024x256 : Shape := ⟨2, ![1024, 256]⟩
abbrev S8x32x32x256 : Shape := ⟨4, ![8, 32, 32, 256]⟩
abbrev S8x256x32x32 : Shape := ⟨4, ![8, 256, 32, 32]⟩

abbrev nBuf : Space → Nat
  | .hbm => 24
  | .vmem => 7
  | .smem => 0
  | _ => 0

abbrev bufTy : (tb : Table) → Fin (tcTables nBuf tb) → BufTy
  | .hbm, ⟨0, _⟩ => ⟨S8x2048x32x32, .f32⟩
  | .hbm, ⟨1, _⟩ => ⟨S256x2048x1x1, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S1x256, .f32⟩
  | .hbm, ⟨17, _⟩ => ⟨S1x256, .f32⟩
  | .hbm, ⟨18, _⟩ => ⟨S256x16x128, .f32⟩
  | .hbm, ⟨19, _⟩ => ⟨S8x32x32x2048, .f32⟩
  | .hbm, ⟨20, _⟩ => ⟨S8x1024x2048, .f32⟩
  | .hbm, ⟨21, _⟩ => ⟨S8x1024x256, .f32⟩
  | .hbm, ⟨22, _⟩ => ⟨S8x32x32x256, .f32⟩
  | .hbm, ⟨23, _⟩ => ⟨S8x256x32x32, .f32⟩
  | .local _ .vmem, ⟨0, _⟩ => ⟨S1x1024x2048, .f32⟩
  | .local _ .vmem, ⟨1, _⟩ => ⟨S1x1024x2048, .f32⟩
  | .local _ .vmem, ⟨2, _⟩ => ⟨S256x16x128, .f32⟩
  | .local _ .vmem, ⟨3, _⟩ => ⟨S1x256, .f32⟩
  | .local _ .vmem, ⟨4, _⟩ => ⟨S1x256, .f32⟩
  | .local _ .vmem, ⟨5, _⟩ => ⟨S1x1024x256, .f32⟩
  | .local _ .vmem, ⟨6, _⟩ => ⟨S1x1024x256, .f32⟩
  | _, _ => ⟨S8x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S256 : S_.BroadcastsInDim S256 (![] : Fin 0 → Fin S256.rank)
  bcast_S256_S1x256_1 : S256.BroadcastsInDim S1x256 (![1] : Fin 1 → Fin S1x256.rank)
  shapeCasts_S256x2048x1x1_S256x16x128 : S256x2048x1x1.ShapeCasts S256x16x128
  transposes_S8x2048x32x32_S8x32x32x2048_0_2_3_1 : S8x2048x32x32.Transposes [0, 2, 3, 1] S8x32x32x2048
  shapeCasts_S8x32x32x2048_S8x1024x2048 : S8x32x32x2048.ShapeCasts S8x1024x2048
  inb_S256x16x128_S256x16x128_0_0_0 : ∀ a, (![0, 0, 0] : Fin 3 → Nat) a + S256x16x128.size a ≤ S256x16x128.size a
  h_S256x16x128 : 0 < S256x16x128.numel
  shapeCasts_S256x16x128_S256x16x128 : S256x16x128.ShapeCasts S256x16x128
  shapeCasts_S256x16x128_S256x2048 : S256x16x128.ShapeCasts S256x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S2048 : S1024x2048.Reduces [0] S2048
  shapeCasts_S2048_S1x2048 : S2048.ShapeCasts S1x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  shapeCasts_S8x1024x256_S8x32x32x256 : S8x1024x256.ShapeCasts S8x32x32x256
  transposes_S8x32x32x256_S8x256x32x32_0_3_1_2 : S8x32x32x256.Transposes [0, 3, 1, 2] S8x256x32x32
  dot_S1x2048_S256x2048_S1x256_1_1_0_0_n_n_wf : DotDims.WF S1x2048 S256x2048 S1x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .f32 = 32 ∨ (Rect.block (s := S8x1024x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16x128.size a ≤ S256x16x128.size a
  hwx0_1 : ∀ i : grid0.Coords, EltTy.bits .f32 = 32 ∨ (Rect.block (s := S256x16x128) S256x16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x1024x256.size a
  hwx0_4 : ∀ i : grid0.Coords, EltTy.bits .f32 = 32 ∨ (Rect.block (s := S8x1024x256) S1x1024x256.size (cc0_transform_4 i) (hinb0_4 i)).WholeWords (EltTy.packing .f32)

variable [Facts₀]

def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf

abbrev win0_0 : Pipeline.Window sig grid0 :=
  Pipeline.Window.ofSpec (Memref.whole main_v12) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x32x32 : Shape := ⟨4, ![8, 2048, 32, 32]⟩
abbrev S256x2048x1x1 : Shape := ⟨4, ![256, 2048, 1, 1]⟩
abbrev S256 : Shape := ⟨1, ![256]⟩
abbrev S_ : Shape := ⟨0, ![]⟩
abbrev S256x2048 : Shape := ⟨2, ![256, 2048]⟩
abbrev S2048x256 : Shape := ⟨2, ![2048, 256]⟩
abbrev S1x256 : Shape := ⟨2, ![1, 256]⟩
abbrev S8x2048x1024 : Shape := ⟨3, ![8, 2048, 1024]⟩
abbrev S8x1x1x256 : Shape := ⟨4, ![8, 1, 1, 256]⟩
abbrev S1x2048x1024 : Shape := ⟨3, ![1, 2048, 1024]⟩
abbrev S1x1x1x256 : Shape := ⟨4, ![1, 1, 1, 256]⟩
abbrev S1x2048 : Shape := ⟨2, ![1, 2048]⟩
abbrev S8x1x256 : Shape := ⟨3, ![8, 1, 256]⟩
abbrev S8x256 : Shape := ⟨2, ![8, 256]⟩
abbrev S8x256x1 : Shape := ⟨3, ![8, 256, 1]⟩
abbrev S8x256x1024 : Shape := ⟨3, ![8, 256, 1024]⟩
abbrev S1x256x1 : Shape := ⟨3, ![1, 256, 1]⟩
abbrev S1x256x1024 : Shape := ⟨3, ![1, 256, 1024]⟩
abbrev S8x256x32x32 : Shape := ⟨4, ![8, 256, 32, 32]⟩

abbrev nBuf : Space → Nat
  | .hbm => 35
  | .vmem => 10
  | .smem => 0
  | _ => 0

abbrev bufTy : (tb : Table) → Fin (tcTables nBuf tb) → BufTy
  | .hbm, ⟨0, _⟩ => ⟨S8x2048x32x32, .f32⟩
  | .hbm, ⟨1, _⟩ => ⟨S256x2048x1x1, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x2048, .f32⟩
  | .hbm, ⟨14, _⟩ => ⟨S2048x256, .f32⟩
  | .hbm, ⟨15, _⟩ => ⟨S1x256, .f32⟩
  | .hbm, ⟨16, _⟩ => ⟨S2048x256, .f32⟩
  | .hbm, ⟨17, _⟩ => ⟨S2048x256, .f32⟩
  | .hbm, ⟨18, _⟩ => ⟨S8x2048x1024, .f32⟩
  | .hbm, ⟨19, _⟩ => ⟨S8x1x1x256, .f32⟩
  | .hbm, ⟨20, _⟩ => ⟨S8x1x256, .f32⟩
  | .hbm, ⟨21, _⟩ => ⟨S_, .f32⟩
  | .hbm, ⟨22, _⟩ => ⟨S8x256, .f32⟩
  | .hbm, ⟨23, _⟩ => ⟨S_, .f32⟩
  | .hbm, ⟨24, _⟩ => ⟨S8x256, .f32⟩
  | .hbm, ⟨25, _⟩ => ⟨S8x256, .f32⟩
  | .hbm, ⟨26, _⟩ => ⟨S1x256, .f32⟩
  | .hbm, ⟨27, _⟩ => ⟨S8x256, .f32⟩
  | .hbm, ⟨28, _⟩ => ⟨S8x256, .f32⟩
  | .hbm, ⟨29, _⟩ => ⟨S_, .f32⟩
  | .hbm, ⟨30, _⟩ => ⟨S8x256, .f32⟩
  | .hbm, ⟨31, _⟩ => ⟨S8x256, .f32⟩
  | .hbm, ⟨32, _⟩ => ⟨S8x256x1, .f32⟩
  | .hbm, ⟨33, _⟩ => ⟨S8x256x1024, .f32⟩
  | .hbm, ⟨34, _⟩ => ⟨S8x256x32x32, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x256, .f32⟩
  | .local _ .vmem, ⟨3, _⟩ => ⟨S1x1x1x256, .f32⟩
  | .local _ .vmem, ⟨4, _⟩ => ⟨S1x1x1x256, .f32⟩
  | .local _ .vmem, ⟨5, _⟩ => ⟨S1x2048, .f32⟩
  | .local _ .vmem, ⟨6, _⟩ => ⟨S1x256x1, .f32⟩
  | .local _ .vmem, ⟨7, _⟩ => ⟨S1x256x1, .f32⟩
  | .local _ .vmem, ⟨8, _⟩ => ⟨S1x256x1024, .f32⟩
  | .local _ .vmem, ⟨9, _⟩ => ⟨S1x256x1024, .f32⟩
  | _, _ => ⟨S8x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_7 : BitVec 32 := 0#32
  let v11 : BitVec 1 := Scalar.cmpi .eq arg2 c0_i32_7
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![8, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  bcast_S_S256 : S_.BroadcastsInDim S256 (![] : Fin 0 → Fin S256.rank)
  shapeCasts_S256x2048x1x1_S256x2048 : S256x2048x1x1.ShapeCasts S256x2048
  transposes_S256x2048_S2048x256_1_0 : S256x2048.Transposes [1, 0] S2048x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  shapeCasts_S8x2048x32x32_S8x2048x1024 : S8x2048x32x32.ShapeCasts S8x2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S1x2048x1024 : S1x2048x1024.ShapeCasts S1x2048x1024
  reduces_S1x2048x1024_S1x2048 : S1x2048x1024.Reduces [2] S1x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S1x256_S1x1x1x256 : S1x256.ShapeCasts S1x1x1x256
  inb_S1x1x1x256_S1x1x1x256_0_0_0_0 : ∀ a, (![0, 0, 0, 0] : Fin 4 → Nat) a + S1x1x1x256.size a ≤ S1x1x1x256.size a
  h_S1x1x1x256 : 0 < S1x1x1x256.numel
  shapeCasts_S8x1x1x256_S8x1x256 : S8x1x1x256.ShapeCasts S8x1x256
  reducesTo_S8x1x256_S8x256_d1 : S8x1x256.ReducesTo [1] S8x256
  h_S_ : 0 < S_.numel
  bcast_S_S8x256 : S_.BroadcastsInDim S8x256 (![] : Fin 0 → Fin S8x256.rank)
  bcast_S1x256_S8x256_0_1 : S1x256.BroadcastsInDim S8x256 (![0, 1] : Fin 2 → Fin S8x256.rank)
  bcast_S8x256_S8x256x1_0_1 : S8x256.BroadcastsInDim S8x256x1 (![0, 1] : Fin 2 → Fin S8x256x1.rank)
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S1x256x1024 : S1x256x1.Broadcasts S1x256x1024
  inb_S1x256x1024_S1x256x1024_0_0_0 : ∀ a, (![0, 0, 0] : Fin 3 → Nat) a + S1x256x1024.size a ≤ S1x256x1024.size a
  h_S1x256x1024 : 0 < S1x256x1024.numel
  shapeCasts_S8x256x1024_S8x256x32x32 : S8x256x1024.ShapeCasts S8x256x32x32
  dot_S1x2048_S2048x256_S1x256_1_0_0_1_n_n_wf : DotDims.WF S1x2048 S2048x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x256.size a ≤ S8x1x1x256.size a
  hwx0_2 : ∀ i : grid0.Coords, EltTy.bits .f32 = 32 ∨ (Rect.block (s := S8x1x1x256) S1x1x1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1.size a ≤ S8x256x1.size a
  hwx1_0 : ∀ i : grid1.Coords, EltTy.bits .f32 = 32 ∨ (Rect.block (s := S8x256x1) S1x256x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S8x256x1024.size a
  hwx1_1 : ∀ i : grid1.Coords, EltTy.bits .f32 = 32 ∨ (Rect.block (s := S8x256x1024) S1x256x1024.size (cc1_transform_1 i) (hinb1_1 i)).WholeWords (EltTy.packing .f32)

variable [Facts₀]

def dot_S1x2048_S2048x256_S1x256_1_0_0_1_n_n : DotDims S1x2048 S2048x256 S1x256 where
  lhsContracting := [1]
  rhsContracting := [0]
  lhsNonContracting := [0]
  rhsNonContracting := [1]
  lhsBatch := []
  rhsBatch := []
  wf := dot_S1x2048_S2048x256_S1x256_1_0_0_1_n_n_wf

abbrev win0_0 : Pipeline.Window sig grid0 :=
  Pipeline.Window.ofSpec (Memref.whole main_v11) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v22) S1x256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x256x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== Proof.KValueArrays.lean ====
/-
  The four arrays the grid steps read, as the host operations in front of them leave them, read at an entry.

  • The input x [8, 2048, 32, 32] is transposed to channels-last and its 32 × 32 map flattened rows first: entry
    (n, r, k) of the [8, 1024, 2048] array is x (n, k, r / 32, r % 32).
  • The weights w [256, 2048, 1, 1] are re-laid as [256, 16, 128]: entry (o, a, b) is w (o, 128 · a + b, 0, 0).
  • The row [1, 256] of scales holds, at o, γ o / √(var o + ε) · 2⁻¹⁰, and the row of shifts β o − μ o · (γ o / √(var o + ε)):
    the host's vector operations act entry by entry, a scalar constant spread over a vector reads the constant
    everywhere, and a vector laid as a one-row matrix reads the vector's entry.
-/
import proofs.«144094_g2000206983220414_pallasbulk_996_20_alg».proof.Proof.Gen.KernelIdeal.Frame
import Idealize.ShloMosaic.Lib.ValueLayout
import Idealize.ShloMosaic.Lib.IdealHost

noncomputable section

namespace Cert.Aspp.K

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The six argument arrays of core c, at their literal shapes: the input x, the weights w, γ, β, μ and the variance. -/
abbrev argX (c : Dev nD) : S8x2048x32x32.Idx → EReal := m ((c.tc : Thread nD τ).loc main_arg0)
abbrev argW (c : Dev nD) : S256x2048x1x1.Idx → EReal := m ((c.tc : Thread nD τ).loc main_arg1)
abbrev argGamma (c : Dev nD) : S256.Idx → EReal := m ((c.tc : Thread nD τ).loc main_arg2)
abbrev argBeta (c : Dev nD) : S256.Idx → EReal := m ((c.tc : Thread nD τ).loc main_arg3)
abbrev argMu (c : Dev nD) : S256.Idx → EReal := m ((c.tc : Thread nD τ).loc main_arg4)
abbrev argVar (c : Dev nD) : S256.Idx → EReal := m ((c.tc : Thread nD τ).loc main_arg5)

/-- Position r of the flattened map lies in row r / 32 … -/
abbrev rowOf (r : Fin 1024) : Fin 32 := ⟨r.val / 32, by have := r.isLt; omega⟩
/-- … at column r % 32. -/
abbrev colOf (r : Fin 1024) : Fin 32 := ⟨r.val % 32, Nat.mod_lt _ (by decide)⟩

/-- A vector of 256 laid as the one row of a [1, 256] matrix reads, at (u, o), the vector at o. -/
theorem row_of_vec {α : Type} (x : S256.Idx → α) (u : Fin 1) (o : Fin 256) :
    broadcastInDim S1x256 ![1] bcast_S256_S1x256_1 x (ix2 u o) = x (ix1 o) :=
  broadcastInDim_apply _ _ x (ix2 u o) (ix1 o) fun a => by
    match a with
    | ⟨0, _⟩ => rfl

/-- The staged input at (n, r, k) is the argument at sample n, channel k, position (r / 32, r % 32). -/
theorem input_at (c : Dev nD) (n : Fin 8) (r : Fin 1024) (k : Fin 2048) :
    (V m c main_v12 : S8x1024x2048.Idx → EReal) (ix3 n r k)
      = argX m c (ix4 n k (rowOf r) (colOf r)) := by
  have e : (V m c main_v12 : S8x1024x2048.Idx → EReal)
      = shapeCast S8x1024x2048 (transpose S8x32x32x2048 [0, 2, 3, 1] (m ((c : Thread nD τ).loc main_arg0))
          transposes_S8x2048x32x32_S8x32x32x2048_0_2_3_1) shapeCasts_S8x32x32x2048_S8x1024x2048 := by
    show StableHlo.after hostOps0 (fun b => m (c, b)) (Proc.devRef .tc main_v12) = _
    after_results
    rfl
  rw [e]
  refine (shapeCast_apply _ _ (ix3 n r k) (ix4 n (rowOf r) (colOf r) k) ?_).trans ?_
  · rw [Shape.rowMajor_val_four, Shape.rowMajor_val_three]
    show ((n.val * 32 + r.val / 32) * 32 + r.val % 32) * 2048 + k.val = (n.val * 1024 + r.val) * 2048 + k.val
    omega
  · exact transpose_apply _ _ _ (ix4 n (rowOf r) (colOf r) k) (ix4 n k (rowOf r) (colOf r)) fun b => by
      match b with
      | ⟨0, _⟩ => rfl
      | ⟨1, _⟩ => rfl
      | ⟨2, _⟩ => rfl
      | ⟨3, _⟩ => rfl

/-- The staged weights at (o, a, b) are the argument at output channel o, input channel 128 · a + b. -/
theorem weights_at (c : Dev nD) (o : Fin 256) (a : Fin 16) (b : Fin 128) (k : Fin 2048) (hk : k.val = a.val * 128 + b.val) :
    (V m c main_v10 : S256x16x128.Idx → EReal) (ix3 o a b)
      = argW m c (ix4 o k (0 : Fin 1) (0 : Fin 1)) := by
  have e : (V m c main_v10 : S256x16x128.Idx → EReal)
      = shapeCast S256x16x128 (m ((c : Thread nD τ).loc main_arg1)) shapeCasts_S256x2048x1x1_S256x16x128 := by
    show StableHlo.after hostOps0 (fun b => m (c, b)) (Proc.devRef .tc main_v10) = _
    after_results
    rfl
  rw [e]
  refine shapeCast_apply _ _ (ix3 o a b) (ix4 o k (0 : Fin 1) (0 : Fin 1)) ?_
  rw [Shape.rowMajor_val_four, Shape.rowMajor_val_three]
  show ((o.val * 2048 + k.val) * 1 + 0) * 1 + 0 = (o.val * 16 + a.val) * 128 + b.val
  omega

/-- The staged row of scales at o: γ o / √(var o + ε), times 2⁻¹⁰. -/
theorem scale_at (c : Dev nD) (u : Fin 1) (o : Fin 256) :
    (V m c main_v8 : S1x256.Idx → EReal) (ix2 u o)
      = Ideal.div (argGamma m c (ix1 o)) (Ideal.sqrt (argVar m c (ix1 o) + Ideal.ofBits .f32 0x3727C5AC#32))
          * Ideal.ofBits .f32 0x3A800000#32 := by
  have e : (V m c main_v8 : S1x256.Idx → EReal)
      = broadcastInDim S1x256 ![1] bcast_S256_S1x256_1
          (mulf (Host.divf (F := Ideal) (m ((c : Thread nD τ).loc main_arg2))
              (Host.sqrt (F := Ideal) (addf (m ((c : Thread nD τ).loc main_arg5))
                (broadcastInDim S256 ![] bcast_S_S256 (constant (F := Ideal) S_ .f32 0x3727C5AC#32)))))
            (broadcastInDim S256 ![] bcast_S_S256 (constant (F := Ideal) S_ .f32 0x3A800000#32))) := by
    show StableHlo.after hostOps0 (fun b => m (c, b)) (Proc.devRef .tc main_v8) = _
    after_results
  rw [e, row_of_vec]
  show Ideal.div _ (Ideal.sqrt (_ + broadcastInDim S256 ![] bcast_S_S256 (constant (F := Ideal) S_ .f32 0x3727C5AC#32) (ix1 o)))
      * broadcastInDim S256 ![] bcast_S_S256 (constant (F := Ideal) S_ .f32 0x3A800000#32) (ix1 o) = _
  rw [broadcastInDim_scalar_apply, broadcastInDim_scalar_apply]
  rfl

/-- The staged row of shifts at o: β o − μ o · (γ o / √(var o + ε)). -/
theorem shift_at (c : Dev nD) (u : Fin 1) (o : Fin 256) :
    (V m c main_v9 : S1x256.Idx → EReal) (ix2 u o)
      = argBeta m c (ix1 o)
          - argMu m c (ix1 o) * Ideal.div (argGamma m c (ix1 o)) (Ideal.sqrt (argVar m c (ix1 o) + Ideal.ofBits .f32 0x3727C5AC#32)) := by
  have e : (V m c main_v9 : S1x256.Idx → EReal)
      = broadcastInDim S1x256 ![1] bcast_S256_S1x256_1
          (subf (m ((c : Thread nD τ).loc main_arg3))
            (mulf (m ((c : Thread nD τ).loc main_arg4))
              (Host.divf (F := Ideal) (m ((c : Thread nD τ).loc main_arg2))
                (Host.sqrt (F := Ideal) (addf (m ((c : Thread nD τ).loc main_arg5))
                  (broadcastInDim S256 ![] bcast_S_S256 (constant (F := Ideal) S_ .f32 0x3727C5AC#32))))))) := by
    show StableHlo.after hostOps0 (fun b => m (c, b)) (Proc.devRef .tc main_v9) = _
    after_results
  rw [e, row_of_vec]
  show _ - _ * Ideal.div _ (Ideal.sqrt (_ + broadcastInDim S256 ![] bcast_S_S256 (constant (F := Ideal) S_ .f32 0x3727C5AC#32) (ix1 o))) = _
  rw [broadcastInDim_scalar_apply]
  rfl

end Cert.Aspp.K

end
-- ==== Proof.KValuePayload.lean ====
/-
  The arithmetic of one grid step, read at one entry of the block it stores.

  A step holds the 1024 × 2048 map of one sample (rows: the 1024 positions, columns: the 2048 input channels), the
  weights as 256 × 16 × 128 (output channel, then the input channel k split as k = 128 · (k / 128) + k % 128), and
  two rows of 256 numbers s and b.  It sums the map over its rows, contracts the 2048 sums against the weights of
  each output channel, multiplies by s, adds b, clips at zero, and copies the resulting row of 256 numbers to each
  of the 1024 rows of the block:

      block (r, o) = max ((Σ_k (Σ_q map (q, k)) · weights (o, k / 128, k % 128)) · s o + b o, 0)     for every row r.

  Every re-laying of an array on the way is read at an index; the contraction is the sum over the one contracted
  coordinate; nothing here needs the summands to be finite.
-/
import proofs.«144094_g2000206983220414_pallasbulk_996_20_alg».proof.Proof.Gen.KernelIdeal.Skeleton
import Idealize.ShloMosaic.Lib.ValueLayout
import Idealize.ShloMosaic.PureOps.Ideal.Laws

noncomputable section

namespace Cert.Aspp.K

open Idealize.ShloMosaic Idealize.ShloMosaic.ValueIdx Cert.KernelIdeal Cert.KernelIdeal.Gen

/-- Input channel k lies in group k / 128 of the weights' middle axis … -/
abbrev hi (k : Fin 2048) : Fin 16 := ⟨k.val / 128, by have := k.isLt; omega⟩
/-- … at place k % 128 of the last. -/
abbrev lo (k : Fin 2048) : Fin 128 := ⟨k.val % 128, Nat.mod_lt _ (by decide)⟩

/-- The weights flattened to 256 × 2048 read, at (o, k), the entry (o, k / 128, k % 128): both sit at position
    2048 · o + k of the row-major order. -/
theorem weights_flat {α : Type} (x : S256x16x128.Idx → α) (h : S256x16x128.ShapeCasts S256x2048) (o : Fin 256) (k : Fin 2048) :
    shapeCast S256x2048 x h (ix2 o k) = x (ix3 o (hi k) (lo k)) :=
  shapeCast_apply x h _ _ (by
    rw [Shape.rowMajor_val_three, Shape.rowMajor_val_two]
    show (o.val * 16 + k.val / 128) * 128 + k.val % 128 = o.val * 2048 + k.val
    omega)

/-- The sum of a 1024 × 2048 array over its rows, from the zero accumulator, is at column k the sum over q of the
    entries (q, k). -/
theorem lane_sum (src : FVec Ideal S1024x2048 .f32) (h : S1024x2048.Reduces [0] S2048) (hφ : FKind.Formats .f32)
    (hacc : (0x00000000#32 : BitVec 32) = 0x00000000#32) (k : Fin 2048) :
    multiReduction .add [0] S2048 src 0x00000000#32 h hφ hacc (ix1 k) = ∑ q : Fin 1024, src (ix2 q k) := by
  refine (Ideal.multiReduction_add_single src 0x00000000#32 h hφ hacc (ix1 k)).trans ?_
  exact Finset.sum_congr rfl fun q _ => congrArg src (funext fun a => Fin.ext (by
    match a with
    | ⟨0, _⟩ => rfl
    | ⟨1, _⟩ => rfl))

/-- A row of 2048 numbers contracted with a 256 × 2048 array along the 2048, into the zero row: at o the sum over
    k of row k times entry (o, k).  The contraction has one axis, so its index is the coordinate k; the left
    operand's other axis has the single coordinate 0. -/
theorem matmul_row (lhs : FVec Ideal S1x2048 .f32) (rhs : FVec Ideal S256x2048 .f32) (u : Fin 1) (o : Fin 256) :
    matmul dot_S1x2048_S256x2048_S1x256_1_1_0_0_n_n none lhs rhs (constant S1x256 .f32 0x00000000#32) (ix2 u o)
      = ∑ k : Fin 2048, lhs (ix2 (0 : Fin 1) k) * rhs (ix2 o k) := by
  show FloatOps.matmul _ none lhs rhs _ (ix2 u o) = _
  rw [Ideal.matmul_constant_zero_apply,
    ← Equiv.sum_comp (contrEquiv1 dot_S1x2048_S256x2048_S1x256_1_1_0_0_n_n 2048 rfl rfl).symm]
  refine Finset.sum_congr rfl fun k _ => ?_
  have ck := contrEquiv1_symm_val dot_S1x2048_S256x2048_S1x256_1_1_0_0_n_n 2048 rfl rfl k
  have l : dot_S1x2048_S256x2048_S1x256_1_1_0_0_n_n.lhsIdx (ix2 u o) ((contrEquiv1 _ 2048 rfl rfl).symm k) = ix2 (0 : Fin 1) k := by
    funext ax; apply Fin.ext
    match ax with
    | ⟨0, h0⟩ =>
      have h := (dot_S1x2048_S256x2048_S1x256_1_1_0_0_n_n.lhsIdx (ix2 u o) ((contrEquiv1 _ 2048 rfl rfl).symm k) ⟨0, h0⟩).isLt
      change _ < 1 at h
      show _ = 0
      omega
    | ⟨1, _⟩ => exact (DotDims.lhsIdx_val_of_single _ (cl := (⟨1, by decide⟩ : Fin S1x2048.rank)) rfl _ _).trans ck
  have r : dot_S1x2048_S256x2048_S1x256_1_1_0_0_n_n.rhsIdx (ix2 u o) ((contrEquiv1 _ 2048 rfl rfl).symm k) = ix2 o k := by
    funext ax; apply Fin.ext
    match ax with
    | ⟨0, _⟩ => rfl
    | ⟨1, _⟩ => exact (DotDims.rhsIdx_val_of_single _ (cr := (⟨1, by decide⟩ : Fin S256x2048.rank)) rfl _ _).trans ck
  rw [l, r]

/-- THE STORED BLOCK AT (r, o): the clipped, scaled and shifted contraction of the row sums with the weights of
    output channel o, the same for every row r. -/
theorem pay_apply (v0 : Vec Ideal S256x16x128 .f32) (v3 : Vec Ideal S1x1024x2048 .f32) (v8 v11 : Vec Ideal S1x256 .f32)
    (u : Fin 1) (r : Fin 1024) (o : Fin 256) :
    k0_pay1 v0 v3 v8 v11 (ix3 u r o)
      = max ((∑ k : Fin 2048, (∑ q : Fin 1024, v3 (ix3 (0 : Fin 1) q k)) * v0 (ix3 o (hi k) (lo k))) * v8 (ix2 (0 : Fin 1) o)
          + v11 (ix2 (0 : Fin 1) o)) 0 := by
  unfold k0_pay1
  dsimp only
  simp only [shapeCast_self]
  rw [shapeCast_ab_1ab_apply, broadcastTo_1b_ab_apply, maximumf_apply, addf_apply, mulf_apply, broadcast_apply, matmul_row]
  show max ((∑ k : Fin 2048, _ * _) * _ + _) (Ideal.ofBits .f32 0x00000000#32) = _
  rw [Ideal.ofBits_zero_f32]
  refine congrArg (fun s => max (s * v8 (ix2 (0 : Fin 1) o) + v11 (ix2 (0 : Fin 1) o)) 0) (Finset.sum_congr rfl fun k _ => ?_)
  rw [shapeCast_a_1a_apply, lane_sum, weights_flat]
  refine congrArg (· * v0 (ix3 o (hi k) (lo k))) (Finset.sum_congr rfl fun q _ => ?_)
  rw [shapeCast_1ab_ab_apply]

end Cert.Aspp.K

end
-- ==== Proof.LibFinite.lean ====
/-
  Finite entries: which operations keep every entry a real number.

  An extended real is finite when it is the image of a real number.  Sums, products, differences, maxima and finite sums
  of finite values are finite; the exponential of a finite value is a positive real, a finite sum of positive reals over a
  non-empty index set is a positive real, the logarithm of a positive real is finite, and a quotient of a finite value by
  a positive real is finite.  For whole arrays: an array read at computed indices (a broadcast, a gather), a pointwise
  combination, a matrix product and an accumulating scatter of arrays with finite entries all have finite entries.
  Last, the identity that needs finiteness: for finite `x`, `m`, `l`, `x - (l + m) = (x - m) - l`.
-/
import Idealize.ShloMosaic.PureOps.Ideal.Laws
import Idealize.ShloMosaic.PureOps.Contract
import Idealize.ShloMosaic.PureOps.Vector

noncomputable section

namespace Cert.Fin

open Idealize.ShloMosaic

/-- The value is a real number. -/
def IsReal (a : EReal) : Prop := ∃ r : ℝ, a = (r : EReal)

/-- The value is a positive real number. -/
def IsPos (a : EReal) : Prop := ∃ r : ℝ, 0 < r ∧ a = (r : EReal)

theorem IsPos.isReal {a : EReal} (h : IsPos a) : IsReal a := let ⟨r, _, e⟩ := h; ⟨r, e⟩

theorem isReal_of_ne {a : EReal} (ht : a ≠ ⊤) (hb : a ≠ ⊥) : IsReal a := ⟨a.toReal, (EReal.coe_toReal ht hb).symm⟩

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

theorem isReal_zero : IsReal 0 := ⟨0, EReal.coe_zero.symm⟩
theorem isReal_coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_cases a b with ⟨e, _⟩ | ⟨e, _⟩ <;> rw [e] <;> assumption

theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsPos.add {a b : EReal} (ha : IsPos a) (hb : IsPos b) : IsPos (a + b) := by
  obtain ⟨r, hr, rfl⟩ := ha; obtain ⟨s, hs, rfl⟩ := hb; exact ⟨r + s, add_pos hr hs, (EReal.coe_add r s).symm⟩

/-- A sum of positive reals over `Fin (n + 1)` is a positive real. -/
theorem isPos_sum_fin : ∀ (n : ℕ) (f : Fin (n + 1) → EReal), (∀ i, IsPos (f i)) → IsPos (∑ i, f i)
  | 0, f, h => by rw [Fin.sum_univ_one]; exact h 0
  | n + 1, f, h => by
    rw [Fin.sum_univ_succ]
    exact (h 0).add (isPos_sum_fin n (fun i => f i.succ) fun i => h i.succ)

theorem isPos_exp {a : EReal} (ha : IsReal a) : IsPos (Ideal.exp a) := by
  obtain ⟨r, rfl⟩ := ha; exact ⟨Real.exp r, Real.exp_pos r, rfl⟩

theorem isReal_log {a : EReal} (ha : IsPos a) : IsReal (Ideal.log a) := by
  obtain ⟨r, hr, rfl⟩ := ha
  refine ⟨Real.log r, ?_⟩
  rw [Ideal.log_coe, if_neg (not_le.mpr hr)]

theorem isReal_div {a b : EReal} (ha : IsReal a) (hb : IsPos b) : IsReal (Ideal.div a b) := by
  obtain ⟨s, hs, rfl⟩ := hb
  rw [Ideal.div_coe (ne_of_gt hs)]
  exact ha.mul (isReal_coe _)

/-- For finite `x`, `m`, `l`: `x - (l + m) = (x - m) - l`. -/
theorem sub_add_eq_sub_sub_swap {x m l : EReal} (hx : IsReal x) (hm : IsReal m) (hl : IsReal l) : x - (l + m) = (x - m) - l := by
  obtain ⟨a, rfl⟩ := hx; obtain ⟨b, rfl⟩ := hm; obtain ⟨c, rfl⟩ := hl
  rw [← EReal.coe_add, ← EReal.coe_sub, ← EReal.coe_sub, ← EReal.coe_sub]
  exact congrArg _ (by ring)

/-- The largest of finitely many finite values, folded from minus infinity over a non-empty index set, is finite. -/
theorem isReal_fold_max (n : ℕ) (f : Fin (n + 1) → EReal) (h : ∀ i, IsReal (f i)) :
    IsReal ((Finset.univ : Finset (Fin (n + 1))).fold max ⊥ f) := by
  refine isReal_of_ne (ne_of_lt ?_) (ne_of_gt ?_)
  · rw [Finset.fold_max_lt]
    exact ⟨bot_lt_top, fun i _ => lt_top_iff_ne_top.mpr (h i).ne_top⟩
  · rw [Finset.lt_fold_max]
    exact Or.inr ⟨0, Finset.mem_univ _, bot_lt_iff_ne_bot.mpr (h 0).ne_bot⟩

/-! ## Whole arrays -/

/-- Every entry of the array is a real number. -/
def AllReal {s : Shape} (v : s.Idx → EReal) : Prop := ∀ i, IsReal (v i)

variable {s t u si : Shape}

/-- An array read at computed indices. -/
theorem AllReal.comp {v : s.Idx → EReal} (h : AllReal v) (g : t.Idx → s.Idx) : AllReal fun j => v (g j) := fun j => h (g j)

theorem allReal_broadcastInDim (dims : Fin s.rank → Fin t.rank) (hb : s.BroadcastsInDim t dims) {v : s.Idx → EReal} (h : AllReal v) :
    AllReal (broadcastInDim t dims hb v) := fun j => h _

theorem allReal_gather {w : ℕ} (d : GatherDims s si t) {v : s.Idx → EReal} (h : AllReal v) (idx : IVec si w) :
    AllReal (Host.gather d v idx) := fun j => h _

theorem allReal_mulf {a b : FVec Ideal s .f32} (ha : AllReal a) (hb : AllReal b) : AllReal (mulf a b) := fun i => (ha i).mul (hb i)
theorem allReal_addf {a b : FVec Ideal s .f32} (ha : AllReal a) (hb : AllReal b) : AllReal (addf a b) := fun i => (ha i).add (hb i)
theorem allReal_maximumf {a b : FVec Ideal s .f32} (ha : AllReal a) (hb : AllReal b) : AllReal (maximumf a b) := fun i => (ha i).max (hb i)

theorem allReal_dotGeneral {sl sr so : Shape} (d : DotDims sl sr so) (prec : Option ContractPrecision)
    {x : FVec Ideal sl .f32} {w : FVec Ideal sr .f32} (hx : AllReal x) (hw : AllReal w) :
    AllReal (Host.dotGeneral (F := Ideal) d prec x w) := fun j => by
  show IsReal (FloatOps.dotGeneral d prec .single x w j)
  rw [Ideal.dotGeneral_apply]
  exact isReal_sum _ _ fun k _ => (hx _).mul (hw _)

theorem allReal_scatterAdd {w : ℕ} (d : ScatterDims s si u) {x : FVec Ideal s .f32} {upd : FVec Ideal u .f32} (idx : IVec si w)
    (hx : AllReal x) (hu : AllReal upd) : AllReal (Host.scatterAdd (F := Ideal) d x idx upd) := fun i => by
  show IsReal (Ideal.hostScatterAdd d x idx upd i)
  unfold Ideal.hostScatterAdd
  exact (hx i).add (isReal_sum _ _ fun j _ => hu j)

end Cert.Fin

end
-- ==== Proof.Spec.lean ====
/-
  The pooled 1×1 convolution with folded batch normalisation, as ONE function of the argument arrays.

  For a sample n and an output channel o the two programs compute, from the map x[n, c, ·, ·] of every input channel c,

      pooled n c = Σ_p x[n, c, p / 32, p % 32]                       (p over the 1024 positions, rows first)
      act n o    = max ((Σ_c pooled n c · w[o, c]) · (scale o · 2⁻¹⁰) + bias o, 0)

  and write act n o at every position of the output map [n, o, ·, ·].  One program multiplies the weights by
  scale o BEFORE the sum over c and by 2⁻¹⁰ after it (`actRef`); the other multiplies the finished sum by
  scale o · 2⁻¹⁰ (`act`).  On the extended reals a factor moves across a sum only when nothing in it is infinite:
  with every pooled value, every weight and scale o real numbers the two are one value (`actRef_eq`).  The bias
  is the same summand on both sides and may be anything.

  scale o = γ o / √(var o + ε) with ε the positive f32 word both programs carry: it is a real number when γ o and
  var o are real and var o ≥ 0 (`isReal_scaleAt`), the square root then being of a positive real.
-/
import Idealize.ShloMosaic.PureOps.Ideal.Laws
import Idealize.ShloMosaic.Lib.ValueIdx
import proofs.«144094_g2000206983220414_pallasbulk_996_20_alg».proof.Proof.LibFinite

noncomputable section

namespace Cert.Aspp

open Idealize.ShloMosaic Idealize.ShloMosaic.ValueIdx Cert.Fin

abbrev SX : Shape := ⟨4, ![8, 2048, 32, 32]⟩
abbrev SW : Shape := ⟨4, ![256, 2048, 1, 1]⟩
abbrev SC : Shape := ⟨1, ![256]⟩
abbrev SO : Shape := ⟨4, ![8, 256, 32, 32]⟩

/-- Position `p` of the 32×32 map, rows first, in channel `c` of sample `n`. -/
abbrev pix (n : Fin 8) (c : Fin 2048) (p : Fin 1024) : SX.Idx :=
  ix4 n c (⟨p.val / 32, by have := p.isLt; omega⟩ : Fin 32) (⟨p.val % 32, by omega⟩ : Fin 32)

/-- Channel `c` of sample `n` summed over the map. -/
def pooled (x : SX.Idx → EReal) (n : Fin 8) (c : Fin 2048) : EReal := ∑ p : Fin 1024, x (pix n c p)

/-- The weight of input channel `c` in output channel `o`. -/
abbrev wAt (w : SW.Idx → EReal) (o : Fin 256) (c : Fin 2048) : EReal := w (ix4 o c (0 : Fin 1) (0 : Fin 1))

/-- 1/1024, as the f32 word both programs carry. -/
abbrev invHW : EReal := Ideal.ofBits .f32 0x3A800000#32

/-- The activation with the scale applied to the finished sum. -/
def act (x : SX.Idx → EReal) (w : SW.Idx → EReal) (scale bias : SC.Idx → EReal) (n : Fin 8) (o : Fin 256) : EReal :=
  max ((∑ c : Fin 2048, pooled x n c * wAt w o c) * (scale (ix1 o) * invHW) + bias (ix1 o)) 0

/-- The activation with the scale applied to each weight before the sum. -/
def actRef (x : SX.Idx → EReal) (w : SW.Idx → EReal) (scale bias : SC.Idx → EReal) (n : Fin 8) (o : Fin 256) : EReal :=
  max ((∑ c : Fin 2048, pooled x n c * (wAt w o c * scale (ix1 o))) * invHW + bias (ix1 o)) 0

/-- The whole result: the activation of (n, o) at every position of its map. -/
def G (x : SX.Idx → EReal) (w : SW.Idx → EReal) (scale bias : SC.Idx → EReal) : SO.Idx → EReal :=
  fun i => act x w scale bias (i 0) (i 1)

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor leaves a sum of products of reals. -/
theorem sum_mul_real {ι : Type} [Fintype ι] (P W : ι → EReal) (s : EReal) (hP : ∀ i, IsReal (P i)) (hW : ∀ i, IsReal (W i))
    (hs : IsReal s) : ∑ i, P i * (W i * s) = (∑ i, P i * W i) * s := by
  choose p hp using hP
  choose q hq using hW
  obtain ⟨r, rfl⟩ := hs
  simp only [hp, hq, ← EReal.coe_mul, ← coe_sum]
  rw [Finset.sum_mul]
  exact congrArg _ (Finset.sum_congr rfl fun i _ => (mul_assoc _ _ _).symm)

theorem isReal_pooled {x : SX.Idx → EReal} (hx : AllReal x) (n : Fin 8) (c : Fin 2048) : IsReal (pooled x n c) :=
  isReal_sum _ _ fun p _ => hx _

/-- With real inputs, weights and scale the two activations are one value. -/
theorem actRef_eq {x : SX.Idx → EReal} {w : SW.Idx → EReal} {scale : SC.Idx → EReal} (bias : SC.Idx → EReal)
    (hx : AllReal x) (hw : AllReal w) (hs : AllReal scale) (n : Fin 8) (o : Fin 256) :
    actRef x w scale bias n o = act x w scale bias n o := by
  unfold actRef act
  rw [sum_mul_real _ _ _ (fun c => isReal_pooled hx n c) (fun c => hw _) (hs _), mul_assoc]

/-- ε, as the f32 word both programs carry: a positive real. -/
abbrev eps : EReal := Ideal.ofBits .f32 0x3727C5AC#32

theorem isPos_eps : IsPos eps :=
  ⟨10995116 * (2 : ℝ) ^ (-40 : ℤ), by positivity, by
    simp [eps, Ideal.ofBits, Ideal.ieee, -EReal.coe_mul]⟩

/-- The folded batch-normalisation scale of one channel. -/
def scaleAt (g v : EReal) : EReal := Ideal.div g (Ideal.sqrt (v + eps))

/-- It is a real number when γ and the variance are, and the variance is not negative. -/
theorem isReal_scaleAt {g v : EReal} (hg : IsReal g) (hv : ∃ r : ℝ, 0 ≤ r ∧ v = (r : EReal)) : IsReal (scaleAt g v) := by
  obtain ⟨r, hr, rfl⟩ := hv
  obtain ⟨e, he, hee⟩ := isPos_eps
  unfold scaleAt
  rw [hee, ← EReal.coe_add, Ideal.sqrt_coe, if_neg (not_lt.mpr (by positivity))]
  exact isReal_div hg ⟨Real.sqrt (r + e), Real.sqrt_pos.mpr (by positivity), rfl⟩

/-- The scale of every channel, from γ and the variance. -/
def scaleOf (g v : SC.Idx → EReal) : SC.Idx → EReal := fun i => scaleAt (g i) (v i)

/-- The folded bias of every channel: β − μ · scale. -/
def biasOf (b mu g v : SC.Idx → EReal) : SC.Idx → EReal := fun i => b i - mu i * scaleAt (g i) (v i)

theorem allReal_scaleOf {g v : SC.Idx → EReal} (hg : AllReal g) (hv : AllReal v) (hv0 : ∀ i, 0 ≤ v i) : AllReal (scaleOf g v) := fun i => by
  obtain ⟨r, hr⟩ := hv i
  exact isReal_scaleAt (hg i) ⟨r, by have := hv0 i; rw [hr] at this; exact_mod_cast this, hr⟩

end Cert.Aspp

end
-- ==== Proof.KValueBlocks.lean ====
/-
  From the grid steps' blocks to the whole staged result.

  The grid has eight steps, one per sample: step t reads rows t of the staged input (the whole 1024 × 2048 map of
  sample t), the whole of the weights and of the two rows of scales and shifts, and writes block t — all 1024 × 256
  entries of sample t — of the result [8, 1024, 256].  A block's entry sits in its array at block index × block
  size + its own coordinate on every axis.  Put together with what one step computes and with what the staged
  arrays hold, step t's block is the restriction to sample t of ONE function of the six arguments,

      staged (n, r, o) = act n o        (the activation of sample n and output channel o, at every position r),

  and since the eight blocks cover the array, the array ends holding that function.
-/
import proofs.«144094_g2000206983220414_pallasbulk_996_20_alg».proof.Proof.Gen.KernelIdeal.Frame
import proofs.«144094_g2000206983220414_pallasbulk_996_20_alg».proof.Proof.KValueArrays
import proofs.«144094_g2000206983220414_pallasbulk_996_20_alg».proof.Proof.KValuePayload
import proofs.«144094_g2000206983220414_pallasbulk_996_20_alg».proof.Proof.Spec
import Idealize.ShloMosaic.Lib.Pipeline.Value

noncomputable section

namespace Cert.Aspp.K

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The folded scale of core c's arguments, γ / √(var + ε) channel by channel … -/
abbrev scaleArg (c : Dev nD) : S256.Idx → EReal := Cert.Aspp.scaleOf (argGamma m c) (argVar m c)
/-- … and the folded shift β − μ · scale. -/
abbrev biasArg (c : Dev nD) : S256.Idx → EReal := Cert.Aspp.biasOf (argBeta m c) (argMu m c) (argGamma m c) (argVar m c)

/-- The staged result: at (n, r, o) the activation of sample n and output channel o, whatever the position r. -/
def staged (c : Dev nD) : S8x1024x256.Idx → EReal := fun i =>
  Cert.Aspp.act (argX m c) (argW m c) (scaleArg m c) (biasArg m c) (i 0) (i 2)

/-- Grid step t works on sample t. -/
def sampleOf (t : Fin cfg0.N) : Fin 8 := ⟨t.val, by have h : t.val < grid0.N := t.isLt; rw [N_0] at h; exact h⟩

/-- The block indices of the five windows at step t: the input and the result move with t along the samples, the
    other three stay at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The four input blocks at step t, read at an entry -/

/-- Entry (0, q, k) of the input's block is x at sample t, channel k, position (q / 32, q % 32). -/
theorem blk0_at (c : Dev nD) (t : Fin cfg0.N) (q : Fin 1024) (k : Fin 2048) :
    iblk m c 0 t (ix3 (0 : Fin 1) q k) = argX m c (ix4 (sampleOf t) k (rowOf q) (colOf q)) := by
  obtain ⟨e0, e1, e2, -⟩ := idx_facts t
  refine Eq.trans ?_ (input_at m c (sampleOf t) q k)
  show (V m c main_v12 : S8x1024x2048.Idx → EReal) (((cfg0.win 0).blk t).view.emb (ix3 (0 : Fin 1) q k))
    = (V m c main_v12 : S8x1024x2048.Idx → EReal) (ix3 (sampleOf t) q k)
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * q.val = q.val; omega
  | ⟨2, _⟩ => show win0_0.index t (2 : Fin 3) * 2048 + 1 * k.val = k.val; omega

/-- Entry (o, k / 128, k % 128) of the weights' block is w at output channel o, input channel k. -/
theorem blk1_at (c : Dev nD) (t : Fin cfg0.N) (o : Fin 256) (k : Fin 2048) :
    iblk m c 1 t (ix3 o (hi k) (lo k)) = argW m c (ix4 o k (0 : Fin 1) (0 : Fin 1)) := by
  obtain ⟨-, -, -, e0, e1, e2, -⟩ := idx_facts t
  refine Eq.trans ?_ (weights_at m c o (hi k) (lo k) k (by show k.val = k.val / 128 * 128 + k.val % 128; omega))
  show (V m c main_v10 : S256x16x128.Idx → EReal) (((cfg0.win 1).blk t).view.emb (ix3 o (hi k) (lo k)))
    = (V m c main_v10 : S256x16x128.Idx → EReal) (ix3 o (hi k) (lo k))
  refine congrArg _ (funext fun a => Fin.ext ?_)
  match a with
  | ⟨0, _⟩ => show win0_1.index t (0 : Fin 3) * 256 + 1 * o.val = o.val; omega
  | ⟨1, _⟩ => show win0_1.index t (1 : Fin 3) * 16 + 1 * (k.val / 128) = k.val / 128; omega
  | ⟨2, _⟩ => show win0_1.index t (2 : Fin 3) * 128 + 1 * (k.val % 128) = k.val % 128; omega

/-- Entry (0, o) of the scales' block. -/
theorem blk2_at (c : Dev nD) (t : Fin cfg0.N) (o : Fin 256) :
    iblk m c 2 t (ix2 (0 : Fin 1) o)
      = Ideal.div (argGamma m c (ix1 o)) (Ideal.sqrt (argVar m c (ix1 o) + Ideal.ofBits .f32 0x3727C5AC#32))
          * Ideal.ofBits .f32 0x3A800000#32 := by
  obtain ⟨-, -, -, -, -, -, e0, e1, -⟩ := idx_facts t
  refine Eq.trans ?_ (scale_at m c (0 : Fin 1) o)
  show (V m c main_v8 : S1x256.Idx → EReal) (((cfg0.win 2).blk t).view.emb (ix2 (0 : Fin 1) o))
    = (V m c main_v8 : S1x256.Idx → EReal) (ix2 (0 : Fin 1) o)
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * o.val = o.val; omega

/-- Entry (0, o) of the shifts' block. -/
theorem blk3_at (c : Dev nD) (t : Fin cfg0.N) (o : Fin 256) :
    iblk m c 3 t (ix2 (0 : Fin 1) o)
      = argBeta m c (ix1 o)
          - argMu m c (ix1 o) * Ideal.div (argGamma m c (ix1 o)) (Ideal.sqrt (argVar m c (ix1 o) + Ideal.ofBits .f32 0x3727C5AC#32)) := by
  obtain ⟨-, -, -, -, -, -, -, -, e0, e1, -⟩ := idx_facts t
  refine Eq.trans ?_ (shift_at m c (0 : Fin 1) o)
  show (V m c main_v9 : S1x256.Idx → EReal) (((cfg0.win 3).blk t).view.emb (ix2 (0 : Fin 1) o))
    = (V m c main_v9 : S1x256.Idx → EReal) (ix2 (0 : Fin 1) o)
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * o.val = o.val; omega

/-! ## What step t stores -/

/-- Step t's stored block at (r, o) is the activation of sample t and output channel o. -/
theorem block_entry (c : Dev nD) (t : Fin cfg0.N) (u : Fin 1) (r : Fin 1024) (o : Fin 256) :
    k0_pay1 (iblk m c 1 t) (iblk m c 0 t) (iblk m c 2 t) (iblk m c 3 t) (ix3 u r o)
      = Cert.Aspp.act (argX m c) (argW m c) (scaleArg m c) (biasArg m c) (sampleOf t) o := by
  refine (pay_apply (iblk m c 1 t) (iblk m c 0 t) (iblk m c 2 t) (iblk m c 3 t) u r o).trans ?_
  simp only [blk0_at m c t, blk1_at m c t, blk2_at m c t, blk3_at m c t]
  rfl

/-- So the stored block is block t of the staged result. -/
theorem block_flush (c : Dev nD) (t : Fin cfg0.N) (y : S1x1024x256.Idx) :
    k0_pay1 (iblk m c 1 t) (iblk m c 0 t) (iblk m c 2 t) (iblk m c 3 t) y
      = staged m c (((cfg0.win 4).blk t).view.emb y) := by
  obtain ⟨u, r, o, rfl⟩ : ∃ (u : Fin 1) (r : Fin 1024) (o : Fin 256), y = ix3 u r o := ⟨y 0, y 1, y 2, eq_ix3 y⟩
  obtain ⟨-, -, -, -, -, -, -, -, -, -, e0, e1, e2⟩ := idx_facts t
  refine (block_entry m c t u r o).trans ?_
  have hu := u.isLt
  have he : ((cfg0.win 4).blk t).view.emb (ix3 u r o) = (ix3 (sampleOf t) r o : S8x1024x256.Idx) := by
    funext a; apply Fin.ext
    match a with
    | ⟨0, _⟩ => show win0_4.index t (0 : Fin 3) * 1 + 1 * u.val = t.val; omega
    | ⟨1, _⟩ => show win0_4.index t (1 : Fin 3) * 1024 + 1 * r.val = r.val; omega
    | ⟨2, _⟩ => show win0_4.index t (2 : Fin 3) * 256 + 1 * o.val = o.val; omega
  rw [he]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT STEP t WRITES BACK is block t of the staged result. -/
theorem flushed_eq (c : Dev nD) (t : Fin cfg0.N) :
    (dats m 0 c).flushed 4 t = ((cfg0.win 4).blk t).view.read (Elt Ideal) (staged m c) := by
  show (cfg0.win 4).cut (grid0.coords t) ((dats m 0 c).after 4 t) = _
  rw [after0_4]
  unfold out0_4
  rw [View.canon_unit_zero hz3]
  simp only [View.ld_unit_zero (S := S256x16x128) hz3, View.ld_unit_zero (S := S1x1024x2048) hz3,
    View.ld_unit_zero (S := S1x256) hz2]
  funext j
  exact block_flush m c t j

/-! ## The blocks cover the array -/

/-- An index is in step t's block iff on every axis it lies in the block's range. -/
theorem mem_blk (t : Fin cfg0.N) (i : S8x1024x256.Idx) :
    i ∈ ((cfg0.win 4).blk t).view.set ↔ ∀ a : Fin 3, win0_4.index t a * S1x1024x256.size a ≤ (i a).val
      ∧ (i a).val < win0_4.index t a * S1x1024x256.size a + S1x1024x256.size a := by
  show i ∈ ((View.whole main_v13).slice (win0_4.rect t)).set ↔ _
  rw [View.set_slice_whole, Rect.mem_set_unit]
  exact Iff.rfl

/-- Entry (n, r, o) lies in the block of step n. -/
theorem cover (i : S8x1024x256.Idx) :
    ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 256 := (i 2).isLt
  obtain ⟨t, ht⟩ : ∃ t : Fin cfg0.N, t.val = (i 0).val :=
    ⟨⟨(i 0).val, by show (i 0).val < grid0.N; rw [N_0]; exact hi0⟩, rfl⟩
  obtain ⟨-, -, -, -, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 256 ≤ (i 2).val ∧ (i 2).val < win0_4.index t (2 : Fin 3) * 256 + 256; omega

/-- THE ARRAY after the eight steps is the staged result. -/
theorem final (c : Dev nD) : (dats m 0 c).arrAt 4 cfg0.N = staged m c :=
  (dats m 0 c).arrAt_eq_of_cover 4 (staged m c) (fun t _ => flushed_eq m c t) cover

end Cert.Aspp.K

end
-- ==== Proof.KValueRun.lean ====
/-
  The idealized kernel's run, read: the result array as one function of the six arguments.

  After the eight grid steps the staged result [8, 1024, 256] holds, at (n, r, o), the activation of sample n and
  output channel o.  Two host operations follow: the 1024 positions are unfolded into the 32 × 32 map (position
  r = 32 · h + w is (h, w)) and the channels are moved in front of the map.  Entry (n, o, h, w) of the result is
  therefore the staged entry (n, 32 · h + w, o): the activation of (n, o), the same at every position — the pooled
  convolution's result.  The six arguments are left as they were.
-/
import proofs.«144094_g2000206983220414_pallasbulk_996_20_alg».proof.Proof.KValueBlocks

noncomputable section

namespace Cert.Aspp.K

open Idealize.ShloMosaic Idealize.ShloMosaic.ValueIdx Idealize.ShloMosaic.TcCoe Idealize.SL.Sem Cert.KernelIdeal Cert.KernelIdeal.Gen

/-- The result buffer after the two host operations that follow the grid. -/
theorem tail (m : (ℓ : Loc nD τ sig) → Buf (Elt Ideal) ℓ) (c : Dev nD) :
    (Pipeline.afterTail₀ cfgs (dats m) 0 (V0 m) [hostOps1] c main_v15 : S8x256x32x32.Idx → EReal)
      = Cert.Aspp.G (argX m c) (argW m c) (scaleArg m c) (biasArg m c) := by
  have hw : Pipeline.withArrays (cfgs 0).spec c (V0 m c) (fun w => (dats m 0 c).arrAt w (cfgs 0).N) (Proc.devRef .tc main_v13)
      = staged m c :=
    (Pipeline.withArrays_arr spec0 launch0.win.arr_inj c _ _ 4).trans (final m c)
  have e : (Pipeline.afterTail₀ cfgs (dats m) 0 (V0 m) [hostOps1] c main_v15 : S8x256x32x32.Idx → EReal)
      = transpose S8x256x32x32 [0, 3, 1, 2] (shapeCast S8x32x32x256 (staged m c) shapeCasts_S8x1024x256_S8x32x32x256)
          transposes_S8x32x32x256_S8x256x32x32_0_3_1_2 := by
    unfold Pipeline.afterTail₀
    show StableHlo.after hostOps1 _ (Proc.devRef .tc main_v15) = _
    after_results
    rw [hw]
    rfl
  rw [e]
  funext i
  obtain ⟨n, o, h, w, rfl⟩ : ∃ (n : Fin 8) (o : Fin 256) (h w : Fin 32), i = ix4 n o h w := ⟨i 0, i 1, i 2, i 3, eq_ix4 i⟩
  refine (transpose_apply _ _ _ (ix4 n o h w) (ix4 n h w o) fun b => ?_).trans ?_
  · match b with
    | ⟨0, _⟩ => rfl
    | ⟨1, _⟩ => rfl
    | ⟨2, _⟩ => rfl
    | ⟨3, _⟩ => rfl
  refine (shapeCast_apply _ _ (ix4 n h w o)
    (ix3 n (⟨h.val * 32 + w.val, by have := h.isLt; have := w.isLt; omega⟩ : Fin 1024) o) ?_).trans ?_
  · rw [Shape.rowMajor_val_three, Shape.rowMajor_val_four]
    show (n.val * 1024 + (h.val * 32 + w.val)) * 256 + o.val = ((n.val * 32 + h.val) * 32 + w.val) * 256 + o.val
    omega
  rfl

theorem run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      (r.2.mem ((c.tc : Thread nD τ).loc main_v15) : S8x256x32x32.Idx → EReal)
          = Cert.Aspp.G (m ((c.tc : Thread nD τ).loc main_arg0)) (m ((c.tc : Thread nD τ).loc main_arg1))
              (Cert.Aspp.scaleOf (m ((c.tc : Thread nD τ).loc main_arg2)) (m ((c.tc : Thread nD τ).loc main_arg5)))
              (Cert.Aspp.biasOf (m ((c.tc : Thread nD τ).loc main_arg3)) (m ((c.tc : Thread nD τ).loc main_arg4)) (m ((c.tc : Thread nD τ).loc main_arg2)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v15 (Pipeline.mem_restRefs_of main_v15 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (Cert.KernelIdeal.Gen.run_main m ρ)

end Cert.Aspp.K

end
-- ==== Proof.RRun.lean ====
/-
  The reference program's run with its RESULT array named.

  The program is five segments: host operations, the reduction call, host operations, the broadcast call, one last
  host operation.  Every weakly fair execution runs them in order, and at the end every array that outlives the
  calls holds what the fold of the segments over the launch memory gives it (`W5`): here that is read at the
  result array and at the six arguments, the arguments being as launched.
-/
import proofs.«144094_g2000206983220414_pallasbulk_996_20_alg».proof.Proof.Gen.ReferenceIdeal.Frame

noncomputable section

namespace Cert.Aspp.R

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates, nothing faulting, with the result array at the last
    boundary's contents and the arguments as launched. -/
theorem run_result : θ_run defs (onTc (τ := τ) (main (F := F))) ⟨m, fun _ => 0, ρ⟩ (fun r => ∀ c : Dev nD,
      r.2.mem ((c.tc : Thread nD τ).loc main_v24) = W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Aspp.R

end
-- ==== Proof.RBody.lean ====
/-
  What the reduction call's body leaves in its output block, as one function of its two input blocks.

  At every grid point the body zeroes its accumulator row, adds to it the sum of the input block
  [1, 2048, 1024] over its last axis, reads the row back and multiplies it into the weight block [2048, 256].
  The three stores go through whole buffers, so each later load reads the payload of the store before it, and
  the output block ends at the matrix product of (0 + the row sums) with the weights.  Read at an entry, at the
  ideal values: the block at (0, 0, 0, o) is Σ_k (0 + Σ_p x[0, k, p]) · w[k, o].
-/
import proofs.«144094_g2000206983220414_pallasbulk_996_20_alg».proof.Proof.Gen.ReferenceIdeal.Frame
import Idealize.ShloMosaic.Lib.Pipeline.Value
import Idealize.ShloMosaic.Lib.ValueIdx
import Idealize.ShloMosaic.Lib.Tactic
import Idealize.ShloMosaic.PureOps.Ideal.Laws

noncomputable section

namespace Cert.Aspp.R

open Idealize.ShloMosaic Idealize.ShloMosaic.TcCoe Idealize.ShloMosaic.Tactic Idealize.ShloMosaic.ValueIdx
open Idealize.SL.Sem
open Cert.ReferenceIdeal Cert.ReferenceIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A load of a whole buffer after stores the last of which wrote the whole buffer reads that store's payload. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

section AnyValues
variable {F : FTy → Type} [FloatOps F]

/-- The output block after the body: the product payload of the accumulated row and the weight block. -/
theorem out0_eq (c : Dev nD) (i : grid0.Coords) (arg3 : Memref sig .tc .vmem S1x2048x1024 .f32) (harg3 : arg3.IsWhole) (arg4 : Memref sig .tc .vmem S2048x256 .f32) (harg4 : arg4.IsWhole) (arg5 : Memref sig .tc .vmem S1x1x1x256 .f32) (harg5 : arg5.IsWhole) (arg6 : Memref sig .tc .vmem S1x2048 .f32) (harg6 : arg6.IsWhole) (hc0 : cond0_0 i) (hc1 : cond0_1 i)
    (x0 : Vec F S1x2048x1024 .f32) (x1 : Vec F S2048x256 .f32) :
    out0_A_2 c i arg3 harg3 arg4 harg4 arg5 harg5 arg6 harg6 hc0 hc1 x0 x1 = k0_pay3 (k0_pay2 x0 (k0_pay1 (F := F))) x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz4]
  rw [readCov_cons_whole (S := S1x2048) _ hz2]
  rw [View.readCov_unit_zero (S := S1x2048) _ hz2]
  simp only [View.readAt_eq_ld, harg3.read_unread, harg4.read_unread, View.ld_unit_zero (S := S1x2048x1024) hz3, View.ld_unit_zero (S := S2048x256) hz2]

end AnyValues

/-- The zeroed accumulator row. -/
theorem pay1_apply (j : S1x2048.Idx) : k0_pay1 (F := Ideal) j = 0 := by
  unfold k0_pay1
  rw [shapeCast_self]
  exact Ideal.ofBits_zero_f32

/-- The accumulated row at k: what the row held plus the sum of the input block over its last axis. -/
theorem pay2_apply (x0 : FVec Ideal S1x2048x1024 .f32) (z : FVec Ideal S1x2048 .f32) (k : Fin 2048) :
    k0_pay2 x0 z (ix2 (0 : Fin 1) k) = z (ix2 (0 : Fin 1) k) + ∑ p : Fin 1024, x0 (ix3 (0 : Fin 1) k p) := by
  unfold k0_pay2
  rw [shapeCast_self, shapeCast_self]
  refine congrArg (z (ix2 (0 : Fin 1) k) + ·) ?_
  refine (Ideal.multiReduction_add_single x0 0x00000000#32 Facts₀.reduces_S1x2048x1024_S1x2048 (.inl rfl) rfl (ix2 (0 : Fin 1) k)).trans ?_
  show ∑ p : Fin 1024, x0 _ = _
  refine Finset.sum_congr rfl fun p _ => congrArg x0 ?_
  funext a; apply Fin.ext
  match a with
  | ⟨0, _⟩ => rfl
  | ⟨1, _⟩ => rfl
  | ⟨2, _⟩ => rfl

/-- The product of a row [1, 2048] with a block [2048, 256] into a zero accumulator, re-laid as [1, 1, 1, 256], at o. -/
theorem pay3_apply (a : FVec Ideal S1x2048 .f32) (b : FVec Ideal S2048x256 .f32) (o : Fin 256) :
    k0_pay3 a b (ix4 (0 : Fin 1) (0 : Fin 1) (0 : Fin 1) o) = ∑ k : Fin 2048, a (ix2 (0 : Fin 1) k) * b (ix2 k o) := by
  unfold k0_pay3
  rw [shapeCast_self]
  refine (shapeCast_apply _ Facts₀.shapeCasts_S1x256_S1x1x1x256 (ix4 (0 : Fin 1) (0 : Fin 1) (0 : Fin 1) o) (ix2 (0 : Fin 1) o) ?_).trans ?_
  · rw [Shape.rowMajor_val_two, Shape.rowMajor_val_four]; rfl
  show FloatOps.matmul dot_S1x2048_S2048x256_S1x256_1_0_0_1_n_n none a b (constant S1x256 .f32 0x00000000#32) (ix2 (0 : Fin 1) o) = _
  rw [Ideal.matmul_constant_zero_apply, ← Equiv.sum_comp (contrEquiv1 dot_S1x2048_S2048x256_S1x256_1_0_0_1_n_n 2048 rfl rfl).symm]
  refine Finset.sum_congr rfl fun c _ => ?_
  have c2 := contrEquiv1_symm_val dot_S1x2048_S2048x256_S1x256_1_0_0_1_n_n 2048 rfl rfl c
  have l2 : dot_S1x2048_S2048x256_S1x256_1_0_0_1_n_n.lhsIdx (ix2 (0 : Fin 1) o) ((contrEquiv1 _ 2048 rfl rfl).symm c) = ix2 (0 : Fin 1) c := by
    funext ax; apply Fin.ext
    match ax with
    | ⟨0, _⟩ => simp [DotDims.lhsIdx, dot_S1x2048_S2048x256_S1x256_1_0_0_1_n_n]
    | ⟨1, _⟩ => simp [DotDims.lhsIdx, dot_S1x2048_S2048x256_S1x256_1_0_0_1_n_n]; exact c2
  have r2 : dot_S1x2048_S2048x256_S1x256_1_0_0_1_n_n.rhsIdx (ix2 (0 : Fin 1) o) ((contrEquiv1 _ 2048 rfl rfl).symm c) = ix2 c o := by
    funext ax; apply Fin.ext
    match ax with
    | ⟨0, _⟩ => simp [DotDims.rhsIdx, dot_S1x2048_S2048x256_S1x256_1_0_0_1_n_n]; exact c2
    | ⟨1, _⟩ => simp [DotDims.rhsIdx, dot_S1x2048_S2048x256_S1x256_1_0_0_1_n_n]; rfl
  rw [l2, r2]

/-- The body's output block at (0, 0, 0, o), from its two input blocks. -/
theorem piece_apply (x0 : FVec Ideal S1x2048x1024 .f32) (x1 : FVec Ideal S2048x256 .f32) (o : Fin 256) :
    k0_pay3 (k0_pay2 x0 (k0_pay1 (F := Ideal))) x1 (ix4 (0 : Fin 1) (0 : Fin 1) (0 : Fin 1) o)
      = ∑ k : Fin 2048, (0 + ∑ p : Fin 1024, x0 (ix3 (0 : Fin 1) k p)) * x1 (ix2 k o) := by
  rw [pay3_apply]
  refine Finset.sum_congr rfl fun k _ => ?_
  rw [pay2_apply, pay1_apply]

end Cert.Aspp.R

end
-- ==== Proof.RReduce.lean ====
/-
  The reduction call's result array, as one function of the two arrays the call finds.

  The call's grid has one point per sample n.  Point n reads the input block [1, 2048, 1024] of sample n and the
  whole weight array [2048, 256], and writes back the block [1, 1, 1, 256] at (n, 0, 0, ·).  What the body leaves
  in that block is the product of the row sums with the weights; the eight blocks cover the result array
  [8, 1, 1, 256], so after the call the array at (n, 0, 0, o) is Σ_k (0 + Σ_p a[n, k, p]) · b[k, o].
-/
import proofs.«144094_g2000206983220414_pallasbulk_996_20_alg».proof.Proof.RBody

noncomputable section

namespace Cert.Aspp.R

open Idealize.ShloMosaic Idealize.ShloMosaic.TcCoe Idealize.ShloMosaic.Tactic Idealize.ShloMosaic.ValueIdx
open Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-- For sample n and output channel o: every input channel summed over its map, against column o of the weights. -/
def contract (a : S8x2048x1024.Idx → EReal) (b : S2048x256.Idx → EReal) : S8x1x1x256.Idx → EReal :=
  fun i => ∑ k : Fin 2048, (0 + ∑ p : Fin 1024, a (ix3 (i 0) k p)) * b (ix2 k (i 3))

/-- Where the three windows' blocks sit at point t: sample t of the input and of the result, the whole weights. -/
theorem idx0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- The sample a point works on. -/
abbrev sampleOf (t : Fin cfg0.N) : Fin 8 := ⟨t.val, by have := t.isLt; have hN : cfg0.N = 8 := N_0; omega⟩

/-- The input block at point t is sample t of the input array. -/
theorem read_x (c : Dev nD) (t : Fin cfg0.N) (k : Fin 2048) (p : Fin 1024) :
    iblk0 V c 0 t (ix3 (0 : Fin 1) k p) = (V c main_v11 : S8x2048x1024.Idx → EReal) (ix3 (sampleOf t) k p) := by
  obtain ⟨e0, e1, e2, -⟩ := idx0 t
  show (V c main_v11 : S8x2048x1024.Idx → EReal) (((cfg0.win 0).blk t).view.emb (ix3 (0 : Fin 1) k p)) = _
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * k.val = k.val; omega
  | ⟨2, _⟩ => show win0_0.index t (2 : Fin 3) * 1024 + 1 * p.val = p.val; omega

/-- The weight block at every point is the whole weight array. -/
theorem read_w (c : Dev nD) (t : Fin cfg0.N) (k : Fin 2048) (o : Fin 256) :
    iblk0 V c 1 t (ix2 k o) = (V c main_v10 : S2048x256.Idx → EReal) (ix2 k o) := by
  obtain ⟨-, -, -, e3, e4, -⟩ := idx0 t
  show (V c main_v10 : S2048x256.Idx → EReal) (((cfg0.win 1).blk t).view.emb (ix2 k o)) = _
  refine congrArg _ (funext fun a => Fin.ext ?_)
  match a with
  | ⟨0, _⟩ => show win0_1.index t (0 : Fin 2) * 2048 + 1 * k.val = k.val; omega
  | ⟨1, _⟩ => show win0_1.index t (1 : Fin 2) * 256 + 1 * o.val = o.val; omega

/-- The result block at point t sits at (t, 0, 0, ·). -/
theorem emb_out (t : Fin cfg0.N) (o : Fin 256) :
    ((cfg0.win 2).blk t).view.emb (ix4 (0 : Fin 1) (0 : Fin 1) (0 : Fin 1) o) = ix4 (sampleOf t) (0 : Fin 1) (0 : Fin 1) o := by
  obtain ⟨-, -, -, -, -, e5, e6, e7, e8⟩ := idx0 t
  refine funext fun a => Fin.ext ?_
  match a with
  | ⟨0, _⟩ => show win0_2.index t (0 : Fin 4) * 1 + 1 * 0 = t.val; omega
  | ⟨1, _⟩ => show win0_2.index t (1 : Fin 4) * 1 + 1 * 0 = 0; omega
  | ⟨2, _⟩ => show win0_2.index t (2 : Fin 4) * 1 + 1 * 0 = 0; omega
  | ⟨3, _⟩ => show win0_2.index t (3 : Fin 4) * 256 + 1 * o.val = o.val; omega

/-- What point t writes back is block t of `contract` of the arrays the call finds. -/
theorem flushed0 (c : Dev nD) (t : Fin cfg0.N) :
    (dat0 V c).flushed 2 t = ((cfg0.win 2).blk t).view.read (Elt Ideal) (contract (V c main_v11) (V c main_v10)) := by
  show (cfg0.win 2).cut (grid0.coords t) ((dat0 V c).after 2 t) = _
  rw [after0_2]
  unfold outsAt0
  rw [out0_eq]
  refine funext fun (j : S1x1x1x256.Idx) => ?_
  obtain ⟨a, b, d, o, rfl⟩ : ∃ (a : Fin 1) (b : Fin 1) (d : Fin 1) (o : Fin 256), j = ix4 a b d o := ⟨j 0, j 1, j 2, j 3, eq_ix4 j⟩
  obtain rfl : a = 0 := Subsingleton.elim _ _
  obtain rfl : b = 0 := Subsingleton.elim _ _
  obtain rfl : d = 0 := Subsingleton.elim _ _
  refine (piece_apply (iblk0 V c 0 t) (iblk0 V c 1 t) o).trans ?_
  show _ = contract (V c main_v11) (V c main_v10) (((cfg0.win 2).blk t).view.emb (ix4 (0 : Fin 1) (0 : Fin 1) (0 : Fin 1) o))
  rw [emb_out]
  unfold contract
  show _ = ∑ k : Fin 2048, _
  refine Finset.sum_congr rfl fun k _ => ?_
  rw [read_w V c t k o]
  refine congrArg (· * _) (congrArg (0 + ·) (Finset.sum_congr rfl fun p _ => ?_))
  exact read_x V c t k p

/-- An index of the result array is in point t's block iff each coordinate is in the block's range on its axis. -/
theorem mem_blk0 (t : Fin cfg0.N) (i : S8x1x1x256.Idx) :
    i ∈ ((cfg0.win 2).blk t).view.set ↔ ∀ a : Fin 4, win0_2.index t a * S1x1x1x256.size a ≤ (i a).val ∧ (i a).val < win0_2.index t a * S1x1x1x256.size a + S1x1x1x256.size a := by
  show i ∈ ((View.whole main_v12).slice (win0_2.rect t)).set ↔ _
  rw [View.set_slice_whole, Rect.mem_set_unit]
  exact Iff.rfl

/-- The point of sample n covers (n, 0, 0, ·). -/
theorem cover0 (i : S8x1x1x256.Idx) : ∃ t : Fin cfg0.N, (cfg0.win 2).flush t = true ∧ i ∈ ((cfg0.win 2).blk t).view.set := by
  have hN : cfg0.N = 8 := N_0
  have h0 : (i 0).val < 8 := (i 0).isLt
  have h1 : (i 1).val < 1 := (i 1).isLt
  have h2 : (i 2).val < 1 := (i 2).isLt
  have h3 : (i 3).val < 256 := (i 3).isLt
  obtain ⟨t, ht⟩ : ∃ t : Fin cfg0.N, t.val = (i 0).val := ⟨⟨(i 0).val, by omega⟩, rfl⟩
  obtain ⟨-, -, -, -, -, e5, e6, e7, e8⟩ := idx0 t
  refine ⟨t, flush0_2 t, ?_⟩
  rw [mem_blk0]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 1 ≤ (i 2).val ∧ (i 2).val < win0_2.index t (2 : Fin 4) * 1 + 1; omega
  | ⟨3, _⟩ => show win0_2.index t (3 : Fin 4) * 256 ≤ (i 3).val ∧ (i 3).val < win0_2.index t (3 : Fin 4) * 256 + 256; omega

/-- The result array after the call. -/
theorem final0 (c : Dev nD) : (dat0 V c).arrAt 2 cfg0.N = contract (V c main_v11) (V c main_v10) :=
  (dat0 V c).arrAt_eq_of_cover 2 (contract (V c main_v11) (V c main_v10)) (fun t _ => flushed0 V c t) cover0

end Cert.Aspp.R

end
-- ==== Proof.RBroadcast.lean ====
/-
  The broadcast call's result array, as one function of the array the call finds.

  The call's grid has one point per sample n.  Point n reads the block [1, 256, 1] of sample n — one activation
  per output channel — and writes back the block [1, 256, 1024]: the body lays each activation along the 1024
  positions of its channel's map.  The eight blocks cover the result array [8, 256, 1024], so after the call the
  array at (n, o, p) is the activation at (n, o, 0), whatever p.
-/
import proofs.«144094_g2000206983220414_pallasbulk_996_20_alg».proof.Proof.RBody

noncomputable section

namespace Cert.Aspp.R

open Idealize.ShloMosaic Idealize.ShloMosaic.TcCoe Idealize.ShloMosaic.Tactic Idealize.ShloMosaic.ValueIdx
open Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-- Every position of the map of (n, o) shows the value at (n, o, 0). -/
def spread (v : S8x256x1.Idx → EReal) : S8x256x1024.Idx → EReal := fun i => v (ix3 (i 0) (i 1) (0 : Fin 1))

/-- Where the two windows' blocks sit at point t: sample t of both arrays. -/
theorem idx1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

/-- The sample a point works on. -/
abbrev sampleOf1 (t : Fin cfg1.N) : Fin 8 := ⟨t.val, by have := t.isLt; have hN : cfg1.N = 8 := N_1; omega⟩

/-- The body's payload: the block [1, 256, 1] laid along the last axis. -/
theorem pay_spread (x0 : FVec Ideal S1x256x1 .f32) (u : Fin 1) (o : Fin 256) (p : Fin 1024) :
    k1_pay1 x0 (ix3 u o p) = x0 (ix3 (0 : Fin 1) o (0 : Fin 1)) := by
  unfold k1_pay1
  rw [shapeCast_self, shapeCast_self]
  refine broadcastTo_apply x0 Facts₀.broadcasts_S1x256x1_S1x256x1024 _ _ fun a => ?_
  match a with
  | ⟨0, _⟩ => rfl
  | ⟨1, _⟩ => rfl
  | ⟨2, _⟩ => rfl

/-- The input block at point t is sample t of the activations. -/
theorem read_y (c : Dev nD) (t : Fin cfg1.N) (o : Fin 256) :
    iblk1 V c 0 t (ix3 (0 : Fin 1) o (0 : Fin 1)) = (V c main_v22 : S8x256x1.Idx → EReal) (ix3 (sampleOf1 t) o (0 : Fin 1)) := by
  obtain ⟨e0, e1, e2, -⟩ := idx1 t
  show (V c main_v22 : S8x256x1.Idx → EReal) (((cfg1.win 0).blk t).view.emb (ix3 (0 : Fin 1) o (0 : Fin 1))) = _
  refine congrArg _ (funext fun a => Fin.ext ?_)
  match a with
  | ⟨0, _⟩ => show win1_0.index t (0 : Fin 3) * 1 + 1 * 0 = t.val; omega
  | ⟨1, _⟩ => show win1_0.index t (1 : Fin 3) * 256 + 1 * o.val = o.val; omega
  | ⟨2, _⟩ => show win1_0.index t (2 : Fin 3) * 1 + 1 * 0 = 0; omega

/-- The result block at point t sits at (t, ·, ·). -/
theorem emb_out1 (t : Fin cfg1.N) (o : Fin 256) (p : Fin 1024) :
    ((cfg1.win 1).blk t).view.emb (ix3 (0 : Fin 1) o p) = ix3 (sampleOf1 t) o p := by
  obtain ⟨-, -, -, e3, e4, e5⟩ := idx1 t
  refine funext fun a => Fin.ext ?_
  match a with
  | ⟨0, _⟩ => show win1_1.index t (0 : Fin 3) * 1 + 1 * 0 = t.val; omega
  | ⟨1, _⟩ => show win1_1.index t (1 : Fin 3) * 256 + 1 * o.val = o.val; omega
  | ⟨2, _⟩ => show win1_1.index t (2 : Fin 3) * 1024 + 1 * p.val = p.val; omega

/-- What point t writes back is block t of `spread` of the array the call finds. -/
theorem flushed1 (c : Dev nD) (t : Fin cfg1.N) :
    (dat1 V c).flushed 1 t = ((cfg1.win 1).blk t).view.read (Elt Ideal) (spread (V c main_v22)) := by
  show (cfg1.win 1).cut (grid1.coords t) ((dat1 V c).after 1 t) = _
  rw [after1_1]
  unfold out1_1
  rw [View.canon_unit_zero hz3]
  simp only [View.ld_unit_zero (S := S1x256x1) hz3]
  refine funext fun (j : S1x256x1024.Idx) => ?_
  obtain ⟨u, o, p, rfl⟩ : ∃ (u : Fin 1) (o : Fin 256) (p : Fin 1024), j = ix3 u o p := ⟨j 0, j 1, j 2, eq_ix3 j⟩
  obtain rfl : u = 0 := Subsingleton.elim _ _
  refine (pay_spread (iblk1 V c 0 t) 0 o p).trans ?_
  show _ = spread (V c main_v22) (((cfg1.win 1).blk t).view.emb (ix3 (0 : Fin 1) o p))
  rw [emb_out1]
  exact read_y V c t o

/-- An index of the result array is in point t's block iff each coordinate is in the block's range on its axis. -/
theorem mem_blk1 (t : Fin cfg1.N) (i : S8x256x1024.Idx) :
    i ∈ ((cfg1.win 1).blk t).view.set ↔ ∀ a : Fin 3, win1_1.index t a * S1x256x1024.size a ≤ (i a).val ∧ (i a).val < win1_1.index t a * S1x256x1024.size a + S1x256x1024.size a := by
  show i ∈ ((View.whole main_v23).slice (win1_1.rect t)).set ↔ _
  rw [View.set_slice_whole, Rect.mem_set_unit]
  exact Iff.rfl

/-- The point of sample n covers (n, ·, ·). -/
theorem cover1 (i : S8x256x1024.Idx) : ∃ t : Fin cfg1.N, (cfg1.win 1).flush t = true ∧ i ∈ ((cfg1.win 1).blk t).view.set := by
  have hN : cfg1.N = 8 := N_1
  have h0 : (i 0).val < 8 := (i 0).isLt
  have h1 : (i 1).val < 256 := (i 1).isLt
  have h2 : (i 2).val < 1024 := (i 2).isLt
  obtain ⟨t, ht⟩ : ∃ t : Fin cfg1.N, t.val = (i 0).val := ⟨⟨(i 0).val, by omega⟩, rfl⟩
  obtain ⟨-, -, -, e3, e4, e5⟩ := idx1 t
  refine ⟨t, flush1_1 t, ?_⟩
  rw [mem_blk1]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 256 ≤ (i 1).val ∧ (i 1).val < win1_1.index t (1 : Fin 3) * 256 + 256; omega
  | ⟨2, _⟩ => show win1_1.index t (2 : Fin 3) * 1024 ≤ (i 2).val ∧ (i 2).val < win1_1.index t (2 : Fin 3) * 1024 + 1024; omega

/-- The result array after the call. -/
theorem final1 (c : Dev nD) : (dat1 V c).arrAt 1 cfg1.N = spread (V c main_v22) :=
  (dat1 V c).arrAt_eq_of_cover 1 (spread (V c main_v22)) (fun t _ => flushed1 V c t) cover1

end Cert.Aspp.R

end
-- ==== Proof.RLayout.lean ====
/-
  The re-layings the reference program makes of its arrays, each read at an entry.

  The input map [8, 2048, 32, 32] flattened to [8, 2048, 1024] keeps channel c of sample n and puts position
  (p / 32, p % 32) at p; the weights [256, 2048, 1, 1] flattened to [256, 2048] and transposed put w[o, c] at (c, o);
  a per-channel vector laid along the rows of a [2048, 256] or [8, 256] array shows entry o in column o; the
  partial results [8, 1, 1, 256] lose a unit axis, the activations [8, 256] gain one, and the last array
  [8, 256, 1024] unflattened to [8, 256, 32, 32] puts p = 32 h + w at (h, w).
-/
import Idealize.ShloMosaic.Lib.Pipeline.Value
import Idealize.ShloMosaic.Lib.ValueIdx
import proofs.«144094_g2000206983220414_pallasbulk_996_20_alg».proof.Proof.Spec

noncomputable section

namespace Cert.Aspp.R

open Idealize.ShloMosaic Idealize.ShloMosaic.ValueIdx

variable {α : Type}

/-- The flattened input at (n, c, p) is the input at position (p / 32, p % 32) of channel c of sample n. -/
theorem flat_input_apply (x : (⟨4, ![8, 2048, 32, 32]⟩ : Shape).Idx → α)
    (h : (⟨4, ![8, 2048, 32, 32]⟩ : Shape).ShapeCasts ⟨3, ![8, 2048, 1024]⟩) (n : Fin 8) (c : Fin 2048) (p : Fin 1024) :
    shapeCast ⟨3, ![8, 2048, 1024]⟩ x h (ix3 n c p) = x (Cert.Aspp.pix n c p) := by
  refine shapeCast_apply x h _ _ ?_
  rw [Shape.rowMajor_val_four, Shape.rowMajor_val_three]
  show ((n.val * 2048 + c.val) * 32 + p.val / 32) * 32 + p.val % 32 = (n.val * 2048 + c.val) * 1024 + p.val
  omega

/-- The flattened weights at (o, c). -/
theorem flat_weight_apply (w : (⟨4, ![256, 2048, 1, 1]⟩ : Shape).Idx → α)
    (h : (⟨4, ![256, 2048, 1, 1]⟩ : Shape).ShapeCasts ⟨2, ![256, 2048]⟩) (o : Fin 256) (c : Fin 2048) :
    shapeCast ⟨2, ![256, 2048]⟩ w h (ix2 o c) = w (ix4 o c (0 : Fin 1) (0 : Fin 1)) := by
  refine shapeCast_apply w h _ _ ?_
  rw [Shape.rowMajor_val_four, Shape.rowMajor_val_two]
  show ((o.val * 2048 + c.val) * 1 + 0) * 1 + 0 = o.val * 2048 + c.val
  omega

/-- The transposed weights at (c, o). -/
theorem transpose_weight_apply (v : (⟨2, ![256, 2048]⟩ : Shape).Idx → α)
    (h : (⟨2, ![256, 2048]⟩ : Shape).Transposes [1, 0] ⟨2, ![2048, 256]⟩) (c : Fin 2048) (o : Fin 256) :
    transpose ⟨2, ![2048, 256]⟩ [1, 0] v h (ix2 c o) = v (ix2 o c) := by
  refine transpose_apply [1, 0] v h _ _ fun b => ?_
  match b with
  | ⟨0, _⟩ => rfl
  | ⟨1, _⟩ => rfl

/-- A vector of 256 entries as the row [1, 256], at (0, o). -/
theorem row_apply (v : (⟨1, ![256]⟩ : Shape).Idx → α)
    (h : (⟨1, ![256]⟩ : Shape).BroadcastsInDim ⟨2, ![1, 256]⟩ ![1]) (u : Fin 1) (o : Fin 256) :
    broadcastInDim ⟨2, ![1, 256]⟩ ![1] h v (ix2 u o) = v (ix1 o) := by
  refine broadcastInDim_apply _ h v _ _ fun a => ?_
  match a with
  | ⟨0, _⟩ => rfl

/-- The row [1, 256] laid along the m rows of [m, 256], at (r, o). -/
theorem rows_apply {m : Nat} (v : (⟨2, ![1, 256]⟩ : Shape).Idx → α)
    (h : (⟨2, ![1, 256]⟩ : Shape).BroadcastsInDim ⟨2, ![m, 256]⟩ ![0, 1]) (r : Fin m) (o : Fin 256) :
    broadcastInDim ⟨2, ![m, 256]⟩ ![0, 1] h v (ix2 r o) = v (ix2 (0 : Fin 1) o) := by
  refine broadcastInDim_apply _ h v _ _ fun a => ?_
  match a with
  | ⟨0, _⟩ => rfl
  | ⟨1, _⟩ => rfl

/-- A scalar laid over a whole array. -/
theorem scalar_apply {t : Shape} (v : (⟨0, ![]⟩ : Shape).Idx → α)
    (h : (⟨0, ![]⟩ : Shape).BroadcastsInDim t ![]) (j : t.Idx) :
    broadcastInDim t ![] h v j = v ix0 := by
  refine broadcastInDim_apply _ h v _ _ fun a => a.elim0

/-- The partial results without their second unit axis, at (n, u, o). -/
theorem drop_unit_apply (v : (⟨4, ![8, 1, 1, 256]⟩ : Shape).Idx → α)
    (h : (⟨4, ![8, 1, 1, 256]⟩ : Shape).ShapeCasts ⟨3, ![8, 1, 256]⟩) (n : Fin 8) (u : Fin 1) (o : Fin 256) :
    shapeCast ⟨3, ![8, 1, 256]⟩ v h (ix3 n u o) = v (ix4 n (0 : Fin 1) (0 : Fin 1) o) := by
  refine shapeCast_apply v h _ _ ?_
  rw [Shape.rowMajor_val_four, Shape.rowMajor_val_three]
  show ((n.val * 1 + 0) * 1 + 0) * 256 + o.val = (n.val * 1 + u.val) * 256 + o.val
  have := u.isLt
  omega

/-- The activations with a trailing unit axis, at (n, o, 0). -/
theorem add_unit_apply (v : (⟨2, ![8, 256]⟩ : Shape).Idx → α)
    (h : (⟨2, ![8, 256]⟩ : Shape).BroadcastsInDim ⟨3, ![8, 256, 1]⟩ ![0, 1]) (n : Fin 8) (o : Fin 256) (u : Fin 1) :
    broadcastInDim ⟨3, ![8, 256, 1]⟩ ![0, 1] h v (ix3 n o u) = v (ix2 n o) := by
  refine broadcastInDim_apply _ h v _ _ fun a => ?_
  match a with
  | ⟨0, _⟩ => rfl
  | ⟨1, _⟩ => rfl

/-- The last array unflattened, at (n, o, h, w): position 32 h + w of the flat map. -/
theorem unflat_apply (v : (⟨3, ![8, 256, 1024]⟩ : Shape).Idx → α)
    (h : (⟨3, ![8, 256, 1024]⟩ : Shape).ShapeCasts ⟨4, ![8, 256, 32, 32]⟩) (n : Fin 8) (o : Fin 256) (a b : Fin 32) :
    shapeCast ⟨4, ![8, 256, 32, 32]⟩ v h (ix4 n o a b)
      = v (ix3 n o (⟨a.val * 32 + b.val, by have := a.isLt; have := b.isLt; omega⟩ : Fin 1024)) := by
  refine shapeCast_apply v h _ _ ?_
  rw [Shape.rowMajor_val_three, Shape.rowMajor_val_four]
  show (n.val * 256 + o.val) * 1024 + (a.val * 32 + b.val) = ((n.val * 256 + o.val) * 32 + a.val) * 32 + b.val
  omega

end Cert.Aspp.R

end
-- ==== Proof.RHost.lean ====
/-
  The reference program's result array, read back through its five segments to the arguments.

  Before the reduction call the host flattens the input to [8, 2048, 1024] and builds the scaled weights
  [2048, 256]: w[o, c] · scale o at (c, o), with scale = γ / √(var + ε); it also folds the bias β − μ · scale.
  The reduction call leaves Σ_c (0 + Σ_p x[n, c, p]) · (w[o, c] · scale o) at (n, 0, 0, o).  Between the calls the
  host sums that over its unit axis from zero, multiplies by 2⁻¹⁰, adds the bias and takes the maximum with zero.
  The broadcast call lays each activation along its map and the last operation unflattens the maps.  So the
  result at (n, o, h, w) is the activation `actRef` of (n, o), whatever the position.
-/
import proofs.«144094_g2000206983220414_pallasbulk_996_20_alg».proof.Proof.RRun
import proofs.«144094_g2000206983220414_pallasbulk_996_20_alg».proof.Proof.RReduce
import proofs.«144094_g2000206983220414_pallasbulk_996_20_alg».proof.Proof.RBroadcast
import proofs.«144094_g2000206983220414_pallasbulk_996_20_alg».proof.Proof.RLayout
import Idealize.ShloMosaic.Lib.StableHlo.Run

noncomputable section

namespace Cert.Aspp.R

open Idealize.ShloMosaic Idealize.ShloMosaic.TcCoe Idealize.ShloMosaic.Tactic Idealize.ShloMosaic.ValueIdx
open Idealize.SL.Sem
open Idealize.ShloMosaic.Pipeline (Dat Cfg Window)
open Cert.ReferenceIdeal Cert.ReferenceIdeal.Gen

variable (m : (ℓ : Loc nD τ sig) → Buf (Elt Ideal) ℓ) (ρ : Dev nD → PrngReg)

/-- The argument arrays as launched, as functions of their indices. -/
abbrev argX (c : Dev nD) : Cert.Aspp.SX.Idx → EReal := m ((c.tc : Thread nD τ).loc main_arg0)
abbrev argW (c : Dev nD) : Cert.Aspp.SW.Idx → EReal := m ((c.tc : Thread nD τ).loc main_arg1)
abbrev argG (c : Dev nD) : Cert.Aspp.SC.Idx → EReal := m ((c.tc : Thread nD τ).loc main_arg2)
abbrev argB (c : Dev nD) : Cert.Aspp.SC.Idx → EReal := m ((c.tc : Thread nD τ).loc main_arg3)
abbrev argM (c : Dev nD) : Cert.Aspp.SC.Idx → EReal := m ((c.tc : Thread nD τ).loc main_arg4)
abbrev argV (c : Dev nD) : Cert.Aspp.SC.Idx → EReal := m ((c.tc : Thread nD τ).loc main_arg5)

/-- The reference's result as one function: the activation of (n, o) at every position of its map. -/
def Gref (x : Cert.Aspp.SX.Idx → EReal) (w : Cert.Aspp.SW.Idx → EReal) (scale bias : Cert.Aspp.SC.Idx → EReal) :
    Cert.Aspp.SO.Idx → EReal := fun i => Cert.Aspp.actRef x w scale bias (i 0) (i 1)

/-! ## Before the reduction call -/

/-- The flattened input the reduction call finds. -/
theorem entry_x (c : Dev nD) :
    (V1 m ρ c main_v11 : S8x2048x1024.Idx → EReal)
      = shapeCast S8x2048x1024 (argX m c) Facts₀.shapeCasts_S8x2048x32x32_S8x2048x1024 := by
  show (W1 m ρ c (Proc.devRef .tc main_v11) : S8x2048x1024.Idx → EReal) = _
  after_results
  rfl

theorem entry_x_apply (c : Dev nD) (n : Fin 8) (k : Fin 2048) (p : Fin 1024) :
    (V1 m ρ c main_v11 : S8x2048x1024.Idx → EReal) (ix3 n k p) = argX m c (Cert.Aspp.pix n k p) := by
  rw [entry_x]
  exact flat_input_apply _ _ n k p

/-- The scale vector as the host computes it. -/
abbrev scaleV (c : Dev nD) : S256.Idx → EReal :=
  Host.divf (F := Ideal) (argG m c)
    (Host.sqrt (F := Ideal) (addf (argV m c) (broadcastInDim S256 ![] Facts₀.bcast_S_S256 (constant (F := Ideal) S_ .f32 0x3727C5AC#32))))

/-- Entry by entry it is γ / √(var + ε). -/
theorem scaleV_eq (c : Dev nD) : scaleV m c = Cert.Aspp.scaleOf (argG m c) (argV m c) := rfl

/-- The scaled weights the reduction call finds. -/
theorem entry_w (c : Dev nD) :
    (V1 m ρ c main_v10 : S2048x256.Idx → EReal)
      = mulf (F := Ideal) (φ := .f32) (transpose S2048x256 [1, 0] (shapeCast S256x2048 (argW m c) Facts₀.shapeCasts_S256x2048x1x1_S256x2048) Facts₀.transposes_S256x2048_S2048x256_1_0)
          (broadcastInDim S2048x256 ![0, 1] Facts₀.bcast_S1x256_S2048x256_0_1
            (broadcastInDim S1x256 ![1] Facts₀.bcast_S256_S1x256_1 (scaleV m c))) := by
  show (W1 m ρ c (Proc.devRef .tc main_v10) : S2048x256.Idx → EReal) = _
  after_results
  rfl

theorem entry_w_apply (c : Dev nD) (k : Fin 2048) (o : Fin 256) :
    (V1 m ρ c main_v10 : S2048x256.Idx → EReal) (ix2 k o)
      = Cert.Aspp.wAt (argW m c) o k * Cert.Aspp.scaleOf (argG m c) (argV m c) (ix1 o) := by
  rw [entry_w, mulf_apply, transpose_weight_apply, flat_weight_apply, rows_apply, row_apply, scaleV_eq]

/-- The folded bias the host computes before the call: no call writes it. -/
theorem mid_bias (c : Dev nD) :
    (W2 m ρ c (Proc.devRef .tc main_v5) : S256.Idx → EReal)
      = Cert.Aspp.biasOf (argB m c) (argM m c) (argG m c) (argV m c) := by
  refine (W2_of_ne m ρ c main_v5 (by decide)).trans ?_
  show (W1 m ρ c (Proc.devRef .tc main_v5) : S256.Idx → EReal) = _
  after_results
  rfl

/-! ## The reduction call -/

/-- The partial results after the reduction call. -/
theorem mid_partials (c : Dev nD) :
    (W2 m ρ c (Proc.devRef .tc main_v12) : S8x1x1x256.Idx → EReal)
      = contract (V1 m ρ c main_v11) (V1 m ρ c main_v10) :=
  (W2_arr m ρ c 2).trans (final0 (V1 m ρ) c)

/-- The contraction read at (n, 0, 0, o). -/
theorem contract_apply (a : S8x2048x1024.Idx → EReal) (b : S2048x256.Idx → EReal) (n : Fin 8) (o : Fin 256) :
    contract a b (ix4 n (0 : Fin 1) (0 : Fin 1) o) = ∑ k : Fin 2048, (0 + ∑ p : Fin 1024, a (ix3 n k p)) * b (ix2 k o) := rfl

theorem mid_partials_apply (c : Dev nD) (n : Fin 8) (o : Fin 256) :
    (W2 m ρ c (Proc.devRef .tc main_v12) : S8x1x1x256.Idx → EReal) (ix4 n (0 : Fin 1) (0 : Fin 1) o)
      = ∑ k : Fin 2048, Cert.Aspp.pooled (argX m c) n k * (Cert.Aspp.wAt (argW m c) o k * Cert.Aspp.scaleOf (argG m c) (argV m c) (ix1 o)) := by
  rw [mid_partials, contract_apply]
  show @Eq EReal _ _
  refine Finset.sum_congr rfl fun k _ => ?_
  rw [entry_w_apply, zero_add]
  refine congrArg (· * _) (Finset.sum_congr rfl fun p _ => ?_)
  exact entry_x_apply m ρ c n k p

/-! ## Between the calls -/

/-- The activations the broadcast call finds. -/
theorem mid_act (c : Dev nD) :
    (V3 m ρ c main_v22 : S8x256x1.Idx → EReal)
      = broadcastInDim S8x256x1 ![0, 1] Facts₀.bcast_S8x256_S8x256x1_0_1
          (maximumf (F := Ideal) (φ := .f32)
            (addf (F := Ideal) (φ := .f32)
              (mulf (F := Ideal) (φ := .f32)
                (Host.reduceAdd (F := Ideal)
                  (shapeCast S8x1x256 (W2 m ρ c (Proc.devRef .tc main_v12) : S8x1x1x256.Idx → EReal) Facts₀.shapeCasts_S8x1x1x256_S8x1x256)
                  (constant (F := Ideal) S_ .f32 0x00000000#32) Facts₀.reducesTo_S8x1x256_S8x256_d1 Facts₀.h_S_)
                (broadcastInDim S8x256 ![] Facts₀.bcast_S_S8x256 (constant (F := Ideal) S_ .f32 0x3A800000#32)))
              (broadcastInDim S8x256 ![0, 1] Facts₀.bcast_S1x256_S8x256_0_1
                (broadcastInDim S1x256 ![1] Facts₀.bcast_S256_S1x256_1 (W2 m ρ c (Proc.devRef .tc main_v5) : S256.Idx → EReal))))
            (broadcastInDim S8x256 ![] Facts₀.bcast_S_S8x256 (constant (F := Ideal) S_ .f32 0x00000000#32))) := by
  show (W3 m ρ c (Proc.devRef .tc main_v22) : S8x256x1.Idx → EReal) = _
  after_results
  rfl

/-- The host's sum over the unit axis, from zero, at (n, o). -/
theorem unit_sum_apply (v : S8x1x256.Idx → EReal) (n : Fin 8) (o : Fin 256) :
    Host.reduceAdd (F := Ideal) v (constant (F := Ideal) S_ .f32 0x00000000#32) Facts₀.reducesTo_S8x1x256_S8x256_d1 Facts₀.h_S_ (ix2 n o)
      = v (ix3 n (0 : Fin 1) o) := by
  have h : S8x1x256.Reduces [1] S8x256 := by decide
  show Ideal.hostReduceAdd _ _ _ (ix2 n o) = _
  rw [Ideal.hostReduceAdd_single Facts₀.reducesTo_S8x1x256_S8x256_d1 h]
  show Ideal.ofBits .f32 0x00000000#32 + ∑ k : Fin 1, v (h.lift (ix2 n o) k) = _
  rw [Ideal.ofBits_zero_f32, zero_add, Fin.sum_univ_one]
  refine congrArg v (funext fun a => Fin.ext ?_)
  match a with
  | ⟨0, _⟩ => rfl
  | ⟨1, _⟩ => rfl
  | ⟨2, _⟩ => rfl

theorem mid_act_apply (c : Dev nD) (n : Fin 8) (o : Fin 256) (u : Fin 1) :
    (V3 m ρ c main_v22 : S8x256x1.Idx → EReal) (ix3 n o u)
      = Cert.Aspp.actRef (argX m c) (argW m c) (Cert.Aspp.scaleOf (argG m c) (argV m c))
          (Cert.Aspp.biasOf (argB m c) (argM m c) (argG m c) (argV m c)) n o := by
  rw [mid_act, add_unit_apply, maximumf_apply, addf_apply, mulf_apply, unit_sum_apply, drop_unit_apply,
    mid_partials_apply, scalar_apply, scalar_apply, rows_apply, row_apply, mid_bias, constant_apply, constant_apply,
    Ideal.ofBits_zero_f32]
  rfl

/-! ## The broadcast call and the last operation -/

/-- The maps after the broadcast call. -/
theorem last_maps (c : Dev nD) :
    (W4 m ρ c (Proc.devRef .tc main_v23) : S8x256x1024.Idx → EReal) = spread (V3 m ρ c main_v22) :=
  (W4_arr m ρ c 1).trans (final1 (V3 m ρ) c)

/-- The result array. -/
theorem result_eq (c : Dev nD) :
    (W5 m ρ c (Proc.devRef .tc main_v24) : S8x256x32x32.Idx → EReal)
      = Gref (argX m c) (argW m c) (Cert.Aspp.scaleOf (argG m c) (argV m c))
          (Cert.Aspp.biasOf (argB m c) (argM m c) (argG m c) (argV m c)) := by
  have e : (W5 m ρ c (Proc.devRef .tc main_v24) : S8x256x32x32.Idx → EReal)
      = shapeCast S8x256x32x32 (W4 m ρ c (Proc.devRef .tc main_v23) : S8x256x1024.Idx → EReal) Facts₀.shapeCasts_S8x256x1024_S8x256x32x32 := by
    after_results
    rfl
  rw [e, last_maps]
  funext i
  obtain ⟨n, o, a, b, rfl⟩ : ∃ (n : Fin 8) (o : Fin 256) (a b : Fin 32), i = ix4 n o a b := ⟨i 0, i 1, i 2, i 3, eq_ix4 i⟩
  rw [unflat_apply]
  exact mid_act_apply m ρ c n o 0

end Cert.Aspp.R

end
-- ==== Proof.PreDecode.lean ====
/-
  The precondition, read back as facts about the entries of the argument arrays.

  The precondition is one truth value: the conjunction of seven "for every entry" statements, each written as
  an and-reduction over all axes of an entrywise comparison.  Six of them say |v i| < +∞ for every entry of one
  float argument, the comparison being against the word 0x7F800000, which denotes +∞; the seventh says
  var i ≥ 0 for every entry of the variance, the comparison being against the zero word.

  An extended real is -∞, a real number or +∞, and the absolute value max x (-x) of either infinity is +∞,
  so |x| < +∞ leaves exactly the real numbers.  A conjunction of one-bit words is 1 only when both words
  are, and an and-reduction into a single result is 1 only when every entry reduced is 1; taking the
  conjunction apart from the outside in gives, for the input, the weights, γ and the variance, that every
  entry is a real number, and that no entry of the variance is negative.  The same is said of β and the mean;
  the algebra does not use it, so it is not carried further.
-/
import proofs.«144094_g2000206983220414_pallasbulk_996_20_alg».proof.Pre_finite_inputs
import proofs.«144094_g2000206983220414_pallasbulk_996_20_alg».proof.Proof.Gen.Pre_finite_inputs
import proofs.«144094_g2000206983220414_pallasbulk_996_20_alg».proof.Proof.Spec
import proofs.«144094_g2000206983220414_pallasbulk_996_20_alg».proof.Proof.LibFinite
import Idealize.ShloMosaic.Lib.ReduceAll
import Idealize.ShloMosaic.Lib.ValueIdx

namespace Cert.Aspp.Pre

open Idealize.ShloMosaic Cert.Fin

/-- A truth value written as a one-bit word is the word 1 exactly when it is true. -/
theorem ofBool_one {b : Bool} : BitVec.ofBool b = 1#1 ↔ b = true := by cases b <;> decide

/-- The word 0x7F800000 denotes +∞. -/
theorem inf_word : Ideal.ofBits .f32 0x7F800000#32 = (⊤ : EReal) := by
  simp [Ideal.ofBits, Ideal.ieee]

/-- An extended real whose absolute value is below +∞ is a real number: of the three kinds of extended
    real, -∞ and +∞ both have absolute value +∞. -/
theorem isReal_of_abs_lt (x : EReal)
    (h : Ideal.cmp .olt (max x (-x)) (Ideal.ofBits .f32 0x7F800000#32) = 1#1) : IsReal x := by
  rw [inf_word] at h
  have h' : max x (-x) < ⊤ := by
    simpa only [Ideal.cmp, ofBool_one, decide_eq_true_eq] using h
  induction x using EReal.rec with
  | bot => exact absurd h' (by simp)
  | coe r => exact ⟨r, rfl⟩
  | top => exact absurd h' (by simp)

/-- The comparison "at least the zero word" says the value is not negative. -/
theorem nonneg_of_oge (x : EReal)
    (h : Ideal.cmp .oge x (Ideal.ofBits .f32 0x00000000#32) = 1#1) : 0 ≤ x := by
  rw [Ideal.ofBits_zero_f32] at h
  simpa only [Ideal.cmp, ofBool_one, decide_eq_true_eq] using h

/-- The shape with no axis has exactly one index. -/
instance subsingleton_scalarIdx : Subsingleton Cert.Pre_finite_inputs.S_.Idx := ⟨fun _ _ => funext fun d => d.elim0⟩

/-- Both operands of a one-bit "and" that came out 1 are 1. -/
theorem andi_one {x y : IVec Cert.Pre_finite_inputs.S_ 1} {i : Cert.Pre_finite_inputs.S_.Idx}
    (h : andi x y i = 1#1) : x i = 1#1 ∧ y i = 1#1 := IntOp.andi_eq_one.1 h

/-- "Every entry of |v| is below +∞", as the and-reduction over all axes of the entrywise comparison against
    the broadcast word of +∞, says every entry of `v` is a real number. -/
theorem allReal_of_all {s : Shape} {axes : List (Fin s.rank)} (v : s.Idx → EReal)
    (red : s.ReducesTo axes Cert.Pre_finite_inputs.S_) (hu : 0 < Cert.Pre_finite_inputs.S_.numel)
    (bc : Cert.Pre_finite_inputs.S_.BroadcastsInDim s (![] : Fin 0 → Fin s.rank)) (init : IVec Cert.Pre_finite_inputs.S_ 1)
    (e : Host.reduce IntOp.andi
          (cmpf .olt (Host.absf (F := Ideal) (φ := .f32) v)
            (broadcastInDim s ![] bc (constant (F := Ideal) Cert.Pre_finite_inputs.S_ .f32 0x7F800000#32)))
          init red hu ValueIdx.ix0 = 1#1) : AllReal v := fun i =>
  isReal_of_abs_lt (v i) (Host.reduce_andi_all _ _ _ _ _ e i)

/-- The precondition, read back: the input, the weights, γ and the variance have only real entries, and no
    entry of the variance is negative.  (It also says so of β and the mean, which the algebra does not need.) -/
theorem decode [Cert.Pre_finite_inputs.Facts] (a0 : Cert.Aspp.SX.Idx → EReal) (a1 : Cert.Aspp.SW.Idx → EReal) (a2 a3 a4 a5 : Cert.Aspp.SC.Idx → EReal)
    (h : Cert.Pre_finite_inputs.fn (F := Ideal) a0 a1 a2 a3 a4 a5 = fun _ => 1#1) :
    AllReal a0 ∧ AllReal a1 ∧ AllReal a2 ∧ AllReal a5 ∧ (∀ i, 0 ≤ a5 i) := by
  have h0 := congrFun h ValueIdx.ix0
  dsimp only [Cert.Pre_finite_inputs.fn, Cert.Pre_finite_inputs.fn_part1] at h0
  obtain ⟨h1, e31⟩ := andi_one h0
  obtain ⟨h2, e27⟩ := andi_one h1
  obtain ⟨h3, -⟩ := andi_one h2
  obtain ⟨h4, -⟩ := andi_one h3
  obtain ⟨h5, e12⟩ := andi_one h4
  obtain ⟨e3, e7⟩ := andi_one h5
  exact ⟨allReal_of_all a0 _ _ _ _ e3, allReal_of_all a1 _ _ _ _ e7, allReal_of_all a2 _ _ _ _ e12,
    allReal_of_all a5 _ _ _ _ e27, fun i => nonneg_of_oge (a5 i) (Host.reduce_andi_all _ _ _ _ _ e31 i)⟩

end Cert.Aspp.Pre
-- ==== Proof.RFinal.lean ====
/-
  The reference's run, stated over the KERNEL's launch memory.

  The two programs start from memories that agree on the six arguments, and the kernel's memory satisfies the
  precondition: every entry of the input, the weights, γ and the variance is a real number and no variance is
  negative.  Then every scale is a real number, every pooled sum is, and moving the scale across the sum over the
  input channels changes nothing: the reference's result, `actRef` of its own arguments at every position, is the
  function `G` of the kernel's arguments.
-/
import proofs.«144094_g2000206983220414_pallasbulk_996_20_alg».proof.Defs
import proofs.«144094_g2000206983220414_pallasbulk_996_20_alg».proof.Proof.RHost
import proofs.«144094_g2000206983220414_pallasbulk_996_20_alg».proof.Proof.PreDecode

noncomputable section

namespace Cert.Aspp.R

open Idealize.ShloMosaic Idealize.SL.Sem Cert.Fin

/-- Under the precondition the reference's function of the arguments is the kernel's. -/
theorem Gref_eq_G [Cert.Pre_finite_inputs.Facts] (x : Cert.Aspp.SX.Idx → EReal) (w : Cert.Aspp.SW.Idx → EReal) (g b mu v : Cert.Aspp.SC.Idx → EReal)
    (h : Cert.Pre_finite_inputs.fn (F := Ideal) x w g b mu v = fun _ => 1#1) :
    Gref x w (Cert.Aspp.scaleOf g v) (Cert.Aspp.biasOf b mu g v) = Cert.Aspp.G x w (Cert.Aspp.scaleOf g v) (Cert.Aspp.biasOf b mu g v) := by
  obtain ⟨hx, hw, hg, hv, hv0⟩ := Cert.Aspp.Pre.decode x w g b mu v h
  funext i
  exact Cert.Aspp.actRef_eq _ hx hw (Cert.Aspp.allReal_scaleOf hg hv hv0) (i 0) (i 1)

/-- The reference, run from a memory agreeing with the kernel's on the arguments, ends with `G` of the kernel's
    arguments in its result array and its own arguments unchanged. -/
theorem run_G (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      (r.2.mem ((c.tc : Thread Cert.ReferenceIdeal.nD Cert.ReferenceIdeal.τ).loc Cert.ReferenceIdeal.main_v24) : Cert.Aspp.SO.Idx → EReal)
          = Cert.Aspp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
              (Cert.Aspp.scaleOf (m ((c.tc : Thread Cert.KernelIdeal.nD Cert.KernelIdeal.τ).loc Cert.KernelIdeal.main_arg2)) (m ((c.tc : Thread Cert.KernelIdeal.nD Cert.KernelIdeal.τ).loc Cert.KernelIdeal.main_arg5)))
              (Cert.Aspp.biasOf (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) := by
  refine (θ_run (Cert.ReferenceIdeal.defs (F := Ideal)) _ _).mono (fun r h c => ?_) (run_result (F := Ideal) m' g')
  obtain ⟨hv, h0, h1, h2, h3, h4, h5⟩ := h c
  refine ⟨?_, h0, h1, h2, h3, h4, h5⟩
  obtain ⟨a0, a1, a2, a3, a4, a5⟩ := hagree c
  rw [hv]
  refine (result_eq m' g' c).trans ?_
  unfold argX argW argG argB argM argV
  rw [a0, a1, a2, a3, a4, a5]
  exact Gref_eq_G _ _ _ _ _ _ (hpre c)

end Cert.Aspp.R

end
-- ==== Proof.lean ====
/-
  The certificate: an ASPP global-pooling branch in one fused call against a two-call reference.

  Both programs compute, for a sample n and an output channel o,

      max ((Σ_c (Σ_p x[n, c, p]) · w[o, c]) · scale o · 2⁻¹⁰ + bias o, 0),   scale = γ / √(var + ε),  bias = β − μ · scale,

  and write it at every position of the map [n, o, ·, ·].  The fused call sums each input channel over its map, multiplies the
  row of sums into the weights, and applies scale o · 2⁻¹⁰ and the bias to the finished product.  The reference multiplies the
  weights by scale o BEFORE its call sums over the input channels, multiplies by 2⁻¹⁰ afterwards on the host, and lays the
  activation along the map in a second call.  On the extended reals a factor moves across a sum only when nothing is
  infinite, and scale o is γ o / 0 when var o = −ε: the claim is stated under the precondition that every float input is a
  real number and no variance is negative, under which var o + ε > 0, every scale is a real number, and the two
  arrangements are one value (Proof/Spec.lean).

  The three frame claims are the generated frame certificates.  The idealization rewrote nothing, so `preserves` is `True`.
  For `algebraic`: the fused program's result array is read off its frame run (Proof/KValue*.lean), the reference's off the
  run of its five segments (Proof/RRun.lean, RBody.lean, RReduce.lean, RBroadcast.lean, RHost.lean), both as the one function
  `Cert.Aspp.G` of the arguments; the precondition is read back as facts about the entries in Proof/PreDecode.lean.
-/
import proofs.«144094_g2000206983220414_pallasbulk_996_20_alg».proof.Defs
import proofs.«144094_g2000206983220414_pallasbulk_996_20_alg».proof.Proof.Gen.Kernel
import proofs.«144094_g2000206983220414_pallasbulk_996_20_alg».proof.Proof.Gen.Kernel.Frame
import proofs.«144094_g2000206983220414_pallasbulk_996_20_alg».proof.Proof.Gen.KernelIdeal
import proofs.«144094_g2000206983220414_pallasbulk_996_20_alg».proof.Proof.Gen.KernelIdeal.Frame
import proofs.«144094_g2000206983220414_pallasbulk_996_20_alg».proof.Proof.Gen.ReferenceIdeal
import proofs.«144094_g2000206983220414_pallasbulk_996_20_alg».proof.Proof.Gen.ReferenceIdeal.Frame
import proofs.«144094_g2000206983220414_pallasbulk_996_20_alg».proof.Proof.Gen.Pre_finite_inputs
import proofs.«144094_g2000206983220414_pallasbulk_996_20_alg».proof.Proof.KValueRun
import proofs.«144094_g2000206983220414_pallasbulk_996_20_alg».proof.Proof.RFinal
import Idealize.ShloMosaic.Adequacy
import Idealize.ShloMosaic.Init

noncomputable section

namespace Cert.Proof

open Idealize.ShloMosaic Idealize.SL.Sem

/-- The three programs run, fault nowhere and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- At the ideal values, from memories agreeing on the arguments of which the precondition holds, both programs end with
    the same result array: `Cert.Aspp.G` of the arguments. -/
theorem algebraic : Cert.algebraic_KernelIdeal_ReferenceIdeal := by
  intro m ρ m' ρ' hpre hagree
  exact ⟨_, Cert.Aspp.K.run m ρ, Cert.Aspp.R.run_G m m' ρ' hpre hagree⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
